-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S200000x147 : S_.BroadcastsInDim S200000x147 (![] : Fin 0 → Fin S200000x147.rank)
  reducesTo_S200000x147_S_d0_1 : S200000x147.ReducesTo [0, 1] S_
  bcast_S_S147x300 : S_.BroadcastsInDim S147x300 (![] : Fin 0 → Fin S147x300.rank)
  reducesTo_S147x300_S_d0_1 : S147x300.ReducesTo [0, 1] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg7 : FVec F S433x300 .f32) (main_arg8 : FVec F S300 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S433x300 .f32 := Host.absf main_arg7
  let main_cst_6 : FVec F S_ .f32 := constant S_ .f32 0x7F800000#32
  let main_v20 : FVec F S433x300 .f32 := broadcastInDim S433x300 ![] bcast_S_S433x300 main_cst_6
  let main_v21 : IVec S433x300 1 := cmpf .olt main_v19 main_v20
  let main_c_7 : IVec S_ 1 := constantI S_ 1 1#1
  let main_v22 : IVec S_ 1 := (fun x v => Host.reduce IntOp.andi x v reducesTo_S433x300_S_d0_1 h_S_) main_v21 main_c_7
  let main_v23 : IVec S_ 1 := andi main_v18 main_v22
  let main_v24 : FVec F S300 .f32 := Host.absf main_arg8
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S100000x133 .f32) (main_arg1 : FVec F S200000x147 .f32) (main_arg2 : IVec S100000x6 32) (main_arg3 : IVec S200000 32) (main_arg4 : IVec S200000 32) (main_arg5 : FVec F S147x300 .f32) (main_arg6 : FVec F S300x300 .f32) (main_arg7 : FVec F S433x300 .f32) (main_arg8 : FVec F S300 .f32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S200000x147 .f32 := Host.absf main_arg1
  let main_cst_0 : FVec F S_ .f32 := constant S_ .f32 0x7F800000#32
  let main_v5 : FVec F S200000x147 .f32 := broadcastInDim S200000x147 ![] bcast_S_S200000x147 main_cst_0
  let main_v6 : IVec S200000x147 1 := cmpf .olt main_v4 main_v5
  let main_c_1 : IVec S_ 1 := constantI S_ 1 1#1
  let main_v7 : IVec S_ 1 := (fun x v => Host.reduce IntOp.andi x v reducesTo_S200000x147_S_d0_1 h_S_) main_v6 main_c_1
  let main_v8 : IVec S_ 1 := andi main_v3 main_v7
  let main_v9 : FVec F S147x300 .f32 := Host.absf main_arg5
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300x300 .f32 := Host.absf main_arg6
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg7 main_arg8 main_v13 main_v16
-- ==== Kernel.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S200000x300 : Shape := ⟨2, ![200000, 300]⟩
abbrev S4000x147 : Shape := ⟨2, ![4000, 147]⟩
abbrev S4000x300 : Shape := ⟨2, ![4000, 300]⟩
abbrev S133x300 : Shape := ⟨2, ![133, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S1x300 : Shape := ⟨2, ![1, 300]⟩
abbrev S4000x133 : Shape := ⟨2, ![4000, 133]⟩

abbrev nBuf : Space → Nat
  | .hbm => 88
  | .vmem => 30
  | .smem => 0
  | _ => 0

abbrev bufTy : (tb : Table) → Fin (tcTables nBuf tb) → BufTy
  | .hbm, ⟨0, _⟩ => ⟨S100000x133, .f32⟩
  | .hbm, ⟨1, _⟩ => ⟨S200000x147, .f32⟩
  | .hbm, ⟨2, _⟩ => ⟨S100000x6, .i32⟩
  | .hbm, ⟨3, _⟩ => ⟨S200000, .i32⟩
  | .hbm, ⟨4, _⟩ => ⟨S200000, .i32⟩
  | .hbm, ⟨5, _⟩ => ⟨S147x300, .f32⟩
  | .hbm, ⟨6, _⟩ => ⟨S300x300, .f32⟩
  | .hbm, ⟨7, _⟩ => ⟨S433x300, .f32⟩
  | .hbm, ⟨8, _⟩ => ⟨S300, .f32⟩
  | .hbm, ⟨9, _⟩ => ⟨S200000x300, .f32⟩
  | .hbm, ⟨10, _⟩ => ⟨S200000x300, .f32⟩
  | .hbm, ⟨11, _⟩ => ⟨S133x300, .f32⟩
  | .hbm, ⟨12, _⟩ => ⟨S300x300, .f32⟩
  | .hbm, ⟨13, _⟩ => ⟨S_, .i32⟩
  | .hbm, ⟨14, _⟩ => ⟨S100000x6, .i32⟩
  | .hbm, ⟨15, _⟩ => ⟨S100000x6, .i1⟩
  | .hbm, ⟨16, _⟩ => ⟨S_, .i32⟩
  | .hbm, ⟨17, _⟩ => ⟨S100000x6, .i32⟩
  | .hbm, ⟨18, _⟩ => ⟨S100000x6, .i32⟩
  | .hbm, ⟨19, _⟩ => ⟨S100000x6, .i32⟩
  | .hbm, ⟨20, _⟩ => ⟨S100000x6x1, .i32⟩
  | .hbm, ⟨21, _⟩ => ⟨S100000x6x300, .f32⟩
  | .hbm, ⟨22, _⟩ => ⟨S_, .f32⟩
  | .hbm, ⟨23, _⟩ => ⟨S100000x300, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x300, .f32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S200000x300, .f32⟩
  | .hbm, ⟨42, _⟩ => ⟨S200000x300, .f32⟩
  | .hbm, ⟨43, _⟩ => ⟨S200000x300, .f32⟩
  | .hbm, ⟨44, _⟩ => ⟨S_, .i32⟩
  | .hbm, ⟨45, _⟩ => ⟨S100000x6, .i32⟩
  | .hbm, ⟨46, _⟩ => ⟨S100000x6, .i1⟩
  | .hbm, ⟨47, _⟩ => ⟨S_, .i32⟩
  | .hbm, ⟨48, _⟩ => ⟨S100000x6, .i32⟩
  | .hbm, ⟨49, _⟩ => ⟨S100000x6, .i32⟩
  | .hbm, ⟨50, _⟩ => ⟨S100000x6, .i32⟩
  | .hbm, ⟨51, _⟩ => ⟨S100000x6x1, .i32⟩
  | .hbm, ⟨52, _⟩ => ⟨S100000x6x300, .f32⟩
  | .hbm, ⟨53, _⟩ => ⟨S_, .f32⟩
  | .hbm, ⟨54, _⟩ => ⟨S100000x300, .f32⟩
  | .hbm, ⟨55, _⟩ => ⟨S_, .i32⟩
  | .hbm, ⟨56, _⟩ => ⟨S200000, .i32⟩
  | .hbm, ⟨57, _⟩ => ⟨S200000, .i1⟩
  | .hbm, ⟨58, _⟩ => ⟨S_, .i32⟩
  | .hbm, ⟨59, _⟩ => ⟨S200000, .i32⟩
  | .hbm, ⟨60, _⟩ => ⟨S200000, .i32⟩
  | .hbm, ⟨61, _⟩ => ⟨S200000, .i32⟩
  | .hbm, ⟨62, _⟩ => ⟨S200000x1, .i32⟩
  | .hbm, ⟨63, _⟩ => ⟨S200000x300, .f32⟩
  | .hbm, ⟨64, _⟩ => ⟨S_, .i32⟩
  | .hbm, ⟨65, _⟩ => ⟨S200000, .i32⟩
  | .hbm, ⟨66, _⟩ => ⟨S200000, .i1⟩
  | .hbm, ⟨67, _⟩ => ⟨S_, .i32⟩
  | .hbm, ⟨68, _⟩ => ⟨S200000, .i32⟩
  | .hbm, ⟨69, _⟩ => ⟨S200000, .i32⟩
  | .hbm, ⟨70, _⟩ => ⟨S200000, .i32⟩
  | .hbm, ⟨71, _⟩ => ⟨S200000x1, .i32⟩
  | .hbm, ⟨72, _⟩ => ⟨S200000x300, .f32⟩
  | .hbm, ⟨73, _⟩ => ⟨S200000x300, .f32⟩
  | .hbm, ⟨74, _⟩ => ⟨S200000x300, .f32⟩
  | .hbm, ⟨75, _⟩ => ⟨S_, .i32⟩
  | .hbm, ⟨76, _⟩ => ⟨S100000x6, .i32⟩
  | .hbm, ⟨77, _⟩ => ⟨S100000x6, .i1⟩
  | .hbm, ⟨78, _⟩ => ⟨S_, .i32⟩
  | .hbm, ⟨79, _⟩ => ⟨S100000x6, .i32⟩
  | .hbm, ⟨80, _⟩ => ⟨S100000x6, .i32⟩
  | .hbm, ⟨81, _⟩ => ⟨S100000x6, .i32⟩
  | .hbm, ⟨82, _⟩ => ⟨S100000x6x1, .i32⟩
  | .hbm, ⟨83, _⟩ => ⟨S100000x6x300, .f32⟩
  | .hbm, ⟨84, _⟩ => ⟨S_, .f32⟩
  | .hbm, ⟨85, _⟩ => ⟨S100000x300, .f32⟩
  | .hbm, ⟨86, _⟩ => ⟨S1x300, .f32⟩
  | .hbm, ⟨87, _⟩ => ⟨S100000x300, .f32⟩
  | .local _ .vmem, ⟨0, _⟩ => ⟨S4000x147, .f32⟩
  | .local _ .vmem, ⟨1, _⟩ => ⟨S4000x147, .f32⟩
  | .local _ .vmem, ⟨2, _⟩ => ⟨S147x300, .f32⟩
  | .local _ .vmem, ⟨3, _⟩ => ⟨S4000x300, .f32⟩
  | .local _ .vmem, ⟨4, _⟩ => ⟨S4000x300, .f32⟩
  | .local _ .vmem, ⟨5, _⟩ => ⟨S4000x300, .f32⟩
  | .local _ .vmem, ⟨6, _⟩ => ⟨S4000x300, .f32⟩
  | .local _ .vmem, ⟨7, _⟩ => ⟨S4000x300, .f32⟩
  | .local _ .vmem, ⟨8, _⟩ => ⟨S4000x300, .f32⟩
  | .local _ .vmem, ⟨9, _⟩ => ⟨S4000x300, .f32⟩
  | .local _ .vmem, ⟨10, _⟩ => ⟨S4000x300, .f32⟩
  | .local _ .vmem, ⟨11, _⟩ => ⟨S300x300, .f32⟩
  | .local _ .vmem, ⟨12, _⟩ => ⟨S4000x300, .f32⟩
  | .local _ .vmem, ⟨13, _⟩ => ⟨S4000x300, .f32⟩
  | .local _ .vmem, ⟨14, _⟩ => ⟨S4000x300, .f32⟩
  | .local _ .vmem, ⟨15, _⟩ => ⟨S4000x300, .f32⟩
  | .local _ .vmem, ⟨16, _⟩ => ⟨S4000x300, .f32⟩
  | .local _ .vmem, ⟨17, _⟩ => ⟨S4000x300, .f32⟩
  | .local _ .vmem, ⟨18, _⟩ => ⟨S300x300, .f32⟩
  | .local _ .vmem, ⟨19, _⟩ => ⟨S4000x300, .f32⟩
  | .local _ .vmem, ⟨20, _⟩ => ⟨S4000x300, .f32⟩
  | .local _ .vmem, ⟨21, _⟩ => ⟨S4000x133, .f32⟩
  | .local _ .vmem, ⟨22, _⟩ => ⟨S4000x133, .f32⟩
  | .local _ .vmem, ⟨23, _⟩ => ⟨S4000x300, .f32⟩
  | .local _ .vmem, ⟨24, _⟩ => ⟨S4000x300, .f32⟩
  | .local _ .vmem, ⟨25, _⟩ => ⟨S133x300, .f32⟩
  | .local _ .vmem, ⟨26, _⟩ => ⟨S300x300, .f32⟩
  | .local _ .vmem, ⟨27, _⟩ => ⟨S1x300, .f32⟩
  | .local _ .vmem, ⟨28, _⟩ => ⟨S4000x300, .f32⟩
  | .local _ .vmem, ⟨29, _⟩ => ⟨S4000x300, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S300x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S4000x147_S4000x147_0_0 : ∀ a, (![0, 0] : Fin 2 → Nat) a + S4000x147.size a ≤ S4000x147.size a
  h_S4000x147 : 0 < S4000x147.numel
  inb_S147x300_S147x300_0_0 : ∀ a, (![0, 0] : Fin 2 → Nat) a + S147x300.size a ≤ S147x300.size a
  h_S147x300 : 0 < S147x300.numel
  inb_S4000x300_S4000x300_0_0 : ∀ a, (![0, 0] : Fin 2 → Nat) a + S4000x300.size a ≤ S4000x300.size a
  h_S4000x300 : 0 < S4000x300.numel
  slices_S433x300_S133x300_0_0 : S433x300.Slices ![0, 0] S133x300
  slices_S433x300_S300x300_133_0 : S433x300.Slices ![133, 0] S300x300
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  shapeCasts_S4000x300_S4000x300 : S4000x300.ShapeCasts S4000x300
  inb_S300x300_S300x300_0_0 : ∀ a, (![0, 0] : Fin 2 → Nat) a + S300x300.size a ≤ S300x300.size a
  h_S300x300 : 0 < S300x300.numel
  shapeCasts_S300_S1x300 : S300.ShapeCasts S1x300
  inb_S4000x133_S4000x133_0_0 : ∀ a, (![0, 0] : Fin 2 → Nat) a + S4000x133.size a ≤ S4000x133.size a
  h_S4000x133 : 0 < S4000x133.numel
  inb_S133x300_S133x300_0_0 : ∀ a, (![0, 0] : Fin 2 → Nat) a + S133x300.size a ≤ S133x300.size a
  h_S133x300 : 0 < S133x300.numel
  shapeCasts_S133x300_S133x300 : S133x300.ShapeCasts S133x300
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S4000x300 : S1x300.Broadcasts S4000x300
  dot_S4000x147_S147x300_S4000x300_1_0_0_1_n_n_wf : DotDims.WF S4000x147 S147x300 S4000x300 [1] [0] [0] [1] [] []
  gather_S200000x300_S100000x6x1_S100000x6x300_2_0_n_n_0_2_1300_wf : GatherDims.WF S200000x300 S100000x6x1 S100000x6x300 [2] [0] [] [0] [] 2 ![1, 300]
  gather_S100000x300_S200000x1_S200000x300_1_0_n_n_0_1_1300_wf : GatherDims.WF S100000x300 S200000x1 S200000x300 [1] [0] [] [0] [] 1 ![1, 300]
  gather_S200000x300_S200000x1_S200000x300_1_0_n_n_0_1_1300_wf : GatherDims.WF S200000x300 S200000x1 S200000x300 [1] [0] [] [0] [] 1 ![1, 300]
  dot_S4000x300_S300x300_S4000x300_1_0_0_1_n_n_wf : DotDims.WF S4000x300 S300x300 S4000x300 [1] [0] [0] [1] [] []
  dot_S4000x133_S133x300_S4000x300_1_0_0_1_n_n_wf : DotDims.WF S4000x133 S133x300 S4000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x147.size a ≤ S200000x147.size a
  hwx0_0 : ∀ i : grid0.Coords, EltTy.bits .f32 = 32 ∨ (Rect.block (s := S200000x147) S4000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x300.size a ≤ S200000x300.size a
  hwx0_2 : ∀ i : grid0.Coords, EltTy.bits .f32 = 32 ∨ (Rect.block (s := S200000x300) S4000x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x300.size a ≤ S200000x300.size a
  hwx0_3 : ∀ i : grid0.Coords, EltTy.bits .f32 = 32 ∨ (Rect.block (s := S200000x300) S4000x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x300.size a ≤ S200000x300.size a
  hwx1_0 : ∀ i : grid1.Coords, EltTy.bits .f32 = 32 ∨ (Rect.block (s := S200000x300) S4000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x300.size a ≤ S200000x300.size a
  hwx1_1 : ∀ i : grid1.Coords, EltTy.bits .f32 = 32 ∨ (Rect.block (s := S200000x300) S4000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x300.size a ≤ S200000x300.size a
  hwx1_3 : ∀ i : grid1.Coords, EltTy.bits .f32 = 32 ∨ (Rect.block (s := S200000x300) S4000x300.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x300.size a ≤ S200000x300.size a
  hwx2_0 : ∀ i : grid2.Coords, EltTy.bits .f32 = 32 ∨ (Rect.block (s := S200000x300) S4000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x300.size a ≤ S200000x300.size a
  hwx2_1 : ∀ i : grid2.Coords, EltTy.bits .f32 = 32 ∨ (Rect.block (s := S200000x300) S4000x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x300.size a ≤ S200000x300.size a
  hwx2_3 : ∀ i : grid2.Coords, EltTy.bits .f32 = 32 ∨ (Rect.block (s := S200000x300) S4000x300.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x133.size a ≤ S100000x133.size a
  hwx3_0 : ∀ i : grid3.Coords, EltTy.bits .f32 = 32 ∨ (Rect.block (s := S100000x133) S4000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x300.size a ≤ S100000x300.size a
  hwx3_1 : ∀ i : grid3.Coords, EltTy.bits .f32 = 32 ∨ (Rect.block (s := S100000x300) S4000x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x300.size a ≤ S133x300.size a
  hwx3_2 : ∀ i : grid3.Coords, EltTy.bits .f32 = 32 ∨ (Rect.block (s := S133x300) S133x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x300.size a ≤ S300x300.size a
  hwx3_3 : ∀ i : grid3.Coords, EltTy.bits .f32 = 32 ∨ (Rect.block (s := S300x300) S300x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x300.size a ≤ S100000x300.size a
  hwx3_5 : ∀ i : grid3.Coords, EltTy.bits .f32 = 32 ∨ (Rect.block (s := S100000x300) S4000x300.size (cc3_transform_5 i) (hinb3_5 i)).WholeWords (EltTy.packing .f32)

variable [Facts₀]

def dot_S4000x147_S147x300_S4000x300_1_0_0_1_n_n : DotDims S4000x147 S147x300 S4000x300 where
  lhsContracting := [1]
  rhsContracting := [0]
  lhsNonContracting := [0]
  rhsNonContracting := [1]
  lhsBatch := []
  rhsBatch := []
  wf := dot_S4000x147_S147x300_S4000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def dot_S4000x300_S300x300_S4000x300_1_0_0_1_n_n : DotDims S4000x300 S300x300 S4000x300 where
  lhsContracting := [1]
  rhsContracting := [0]
  lhsNonContracting := [0]
  rhsNonContracting := [1]
  lhsBatch := []
  rhsBatch := []
  wf := dot_S4000x300_S300x300_S4000x300_1_0_0_1_n_n_wf
def dot_S4000x133_S133x300_S4000x300_1_0_0_1_n_n : DotDims S4000x133 S133x300 S4000x300 where
  lhsContracting := [1]
  rhsContracting := [0]
  lhsNonContracting := [0]
  rhsNonContracting := [1]
  lhsBatch := []
  rhsBatch := []
  wf := dot_S4000x133_S133x300_S4000x300_1_0_0_1_n_n_wf

abbrev win0_0 : Pipeline.Window sig grid0 :=
  Pipeline.Window.ofSpec (Memref.whole main_arg1) S4000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4000x300.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S4000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S4000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S4000x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S4000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S4000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S4000x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S4000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S4000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S133x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2) S300x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S4000x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S200000x300 : Shape := ⟨2, ![200000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S100000x433 : Shape := ⟨2, ![100000, 433]⟩
abbrev S1x300 : Shape := ⟨2, ![1, 300]⟩

abbrev nBuf : Space → Nat
  | .hbm => 102
  | .vmem => 0
  | .smem => 0
  | _ => 0

abbrev bufTy : (tb : Table) → Fin (tcTables nBuf tb) → BufTy
  | .hbm, ⟨0, _⟩ => ⟨S100000x133, .f32⟩
  | .hbm, ⟨1, _⟩ => ⟨S200000x147, .f32⟩
  | .hbm, ⟨2, _⟩ => ⟨S100000x6, .i32⟩
  | .hbm, ⟨3, _⟩ => ⟨S200000, .i32⟩
  | .hbm, ⟨4, _⟩ => ⟨S200000, .i32⟩
  | .hbm, ⟨5, _⟩ => ⟨S147x300, .f32⟩
  | .hbm, ⟨6, _⟩ => ⟨S300x300, .f32⟩
  | .hbm, ⟨7, _⟩ => ⟨S433x300, .f32⟩
  | .hbm, ⟨8, _⟩ => ⟨S300, .f32⟩
  | .hbm, ⟨9, _⟩ => ⟨S200000x300, .f32⟩
  | .hbm, ⟨10, _⟩ => ⟨S_, .f32⟩
  | .hbm, ⟨11, _⟩ => ⟨S200000x300, .f32⟩
  | .hbm, ⟨12, _⟩ => ⟨S200000x300, .f32⟩
  | .hbm, ⟨13, _⟩ => ⟨S_, .i32⟩
  | .hbm, ⟨14, _⟩ => ⟨S100000x6, .i32⟩
  | .hbm, ⟨15, _⟩ => ⟨S100000x6, .i1⟩
  | .hbm, ⟨16, _⟩ => ⟨S_, .i32⟩
  | .hbm, ⟨17, _⟩ => ⟨S100000x6, .i32⟩
  | .hbm, ⟨18, _⟩ => ⟨S100000x6, .i32⟩
  | .hbm, ⟨19, _⟩ => ⟨S100000x6, .i32⟩
  | .hbm, ⟨20, _⟩ => ⟨S100000x6x1, .i32⟩
  | .hbm, ⟨21, _⟩ => ⟨S100000x6x300, .f32⟩
  | .hbm, ⟨22, _⟩ => ⟨S_, .f32⟩
  | .hbm, ⟨23, _⟩ => ⟨S100000x300, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x300, .f32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S200000x300, .f32⟩
  | .hbm, ⟨42, _⟩ => ⟨S200000x300, .f32⟩
  | .hbm, ⟨43, _⟩ => ⟨S200000x300, .f32⟩
  | .hbm, ⟨44, _⟩ => ⟨S200000x300, .f32⟩
  | .hbm, ⟨45, _⟩ => ⟨S_, .f32⟩
  | .hbm, ⟨46, _⟩ => ⟨S200000x300, .f32⟩
  | .hbm, ⟨47, _⟩ => ⟨S200000x300, .f32⟩
  | .hbm, ⟨48, _⟩ => ⟨S_, .i32⟩
  | .hbm, ⟨49, _⟩ => ⟨S100000x6, .i32⟩
  | .hbm, ⟨50, _⟩ => ⟨S100000x6, .i1⟩
  | .hbm, ⟨51, _⟩ => ⟨S_, .i32⟩
  | .hbm, ⟨52, _⟩ => ⟨S100000x6, .i32⟩
  | .hbm, ⟨53, _⟩ => ⟨S100000x6, .i32⟩
  | .hbm, ⟨54, _⟩ => ⟨S100000x6, .i32⟩
  | .hbm, ⟨55, _⟩ => ⟨S100000x6x1, .i32⟩
  | .hbm, ⟨56, _⟩ => ⟨S100000x6x300, .f32⟩
  | .hbm, ⟨57, _⟩ => ⟨S_, .f32⟩
  | .hbm, ⟨58, _⟩ => ⟨S100000x300, .f32⟩
  | .hbm, ⟨59, _⟩ => ⟨S_, .i32⟩
  | .hbm, ⟨60, _⟩ => ⟨S200000, .i32⟩
  | .hbm, ⟨61, _⟩ => ⟨S200000, .i1⟩
  | .hbm, ⟨62, _⟩ => ⟨S_, .i32⟩
  | .hbm, ⟨63, _⟩ => ⟨S200000, .i32⟩
  | .hbm, ⟨64, _⟩ => ⟨S200000, .i32⟩
  | .hbm, ⟨65, _⟩ => ⟨S200000, .i32⟩
  | .hbm, ⟨66, _⟩ => ⟨S200000x1, .i32⟩
  | .hbm, ⟨67, _⟩ => ⟨S200000x300, .f32⟩
  | .hbm, ⟨68, _⟩ => ⟨S_, .i32⟩
  | .hbm, ⟨69, _⟩ => ⟨S200000, .i32⟩
  | .hbm, ⟨70, _⟩ => ⟨S200000, .i1⟩
  | .hbm, ⟨71, _⟩ => ⟨S_, .i32⟩
  | .hbm, ⟨72, _⟩ => ⟨S200000, .i32⟩
  | .hbm, ⟨73, _⟩ => ⟨S200000, .i32⟩
  | .hbm, ⟨74, _⟩ => ⟨S200000, .i32⟩
  | .hbm, ⟨75, _⟩ => ⟨S200000x1, .i32⟩
  | .hbm, ⟨76, _⟩ => ⟨S200000x300, .f32⟩
  | .hbm, ⟨77, _⟩ => ⟨S200000x300, .f32⟩
  | .hbm, ⟨78, _⟩ => ⟨S200000x300, .f32⟩
  | .hbm, ⟨79, _⟩ => ⟨S200000x300, .f32⟩
  | .hbm, ⟨80, _⟩ => ⟨S_, .f32⟩
  | .hbm, ⟨81, _⟩ => ⟨S200000x300, .f32⟩
  | .hbm, ⟨82, _⟩ => ⟨S200000x300, .f32⟩
  | .hbm, ⟨83, _⟩ => ⟨S_, .i32⟩
  | .hbm, ⟨84, _⟩ => ⟨S100000x6, .i32⟩
  | .hbm, ⟨85, _⟩ => ⟨S100000x6, .i1⟩
  | .hbm, ⟨86, _⟩ => ⟨S_, .i32⟩
  | .hbm, ⟨87, _⟩ => ⟨S100000x6, .i32⟩
  | .hbm, ⟨88, _⟩ => ⟨S100000x6, .i32⟩
  | .hbm, ⟨89, _⟩ => ⟨S100000x6, .i32⟩
  | .hbm, ⟨90, _⟩ => ⟨S100000x6x1, .i32⟩
  | .hbm, ⟨91, _⟩ => ⟨S100000x6x300, .f32⟩
  | .hbm, ⟨92, _⟩ => ⟨S_, .f32⟩
  | .hbm, ⟨93, _⟩ => ⟨S100000x300, .f32⟩
  | .hbm, ⟨94, _⟩ => ⟨S100000x433, .f32⟩
  | .hbm, ⟨95, _⟩ => ⟨S100000x300, .f32⟩
  | .hbm, ⟨96, _⟩ => ⟨S1x300, .f32⟩
  | .hbm, ⟨97, _⟩ => ⟨S100000x300, .f32⟩
  | .hbm, ⟨98, _⟩ => ⟨S100000x300, .f32⟩
  | .hbm, ⟨99, _⟩ => ⟨S_, .f32⟩
  | .hbm, ⟨100, _⟩ => ⟨S100000x300, .f32⟩
  | .hbm, ⟨101, _⟩ => ⟨S100000x300, .f32⟩
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call3_cst : Ref sig .tc := ⟨.hbm, 99, rfl⟩
abbrev main_call3_v0 : Ref sig .tc := ⟨.hbm, 100, rfl⟩
abbrev main_v67 : Ref sig .tc := ⟨.hbm, 101, rfl⟩

abbrev nD : Nat := 1
abbrev τ : Topo := Topo.v7x

variable {F : FTy → Type} [FloatOps F]

class Facts₀ : Prop where
  bcast_S_S200000x300 : S_.BroadcastsInDim S200000x300 (![] : Fin 0 → Fin S200000x300.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  concatenates_S100000x133_S100000x300_S100000x433_d1 : Shape.Concatenates [S100000x133, S100000x300] S100000x433 1
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  dot_S200000x147_S147x300_S200000x300_1_0_0_1_n_n_wf : DotDims.WF S200000x147 S147x300 S200000x300 [1] [0] [0] [1] [] []
  gather_S200000x300_S100000x6x1_S100000x6x300_2_0_n_n_0_2_1300_wf : GatherDims.WF S200000x300 S100000x6x1 S100000x6x300 [2] [0] [] [0] [] 2 ![1, 300]
  gather_S100000x300_S200000x1_S200000x300_1_0_n_n_0_1_1300_wf : GatherDims.WF S100000x300 S200000x1 S200000x300 [1] [0] [] [0] [] 1 ![1, 300]
  gather_S200000x300_S200000x1_S200000x300_1_0_n_n_0_1_1300_wf : GatherDims.WF S200000x300 S200000x1 S200000x300 [1] [0] [] [0] [] 1 ![1, 300]
  dot_S200000x300_S300x300_S200000x300_1_0_0_1_n_n_wf : DotDims.WF S200000x300 S300x300 S200000x300 [1] [0] [0] [1] [] []
  dot_S100000x433_S433x300_S100000x300_1_0_0_1_n_n_wf : DotDims.WF S100000x433 S433x300 S100000x300 [1] [0] [0] [1] [] []

variable [Facts₀]

def dot_S200000x147_S147x300_S200000x300_1_0_0_1_n_n : DotDims S200000x147 S147x300 S200000x300 where
  lhsContracting := [1]
  rhsContracting := [0]
  lhsNonContracting := [0]
  rhsNonContracting := [1]
  lhsBatch := []
  rhsBatch := []
  wf := dot_S200000x147_S147x300_S200000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def dot_S200000x300_S300x300_S200000x300_1_0_0_1_n_n : DotDims S200000x300 S300x300 S200000x300 where
  lhsContracting := [1]
  rhsContracting := [0]
  lhsNonContracting := [0]
  rhsNonContracting := [1]
  lhsBatch := []
  rhsBatch := []
  wf := dot_S200000x300_S300x300_S200000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf

class Facts : Prop extends Facts₀ where

variable [Facts]
-- ==== Proof.KernelRun.lean ====
/-
  The kernel program's run over the extended reals (or over any other reading of the floats), with its result named.

  The program is four kernel launches among three stretches of host operations. Its run is followed boundary by
  boundary: the buffer contents at each boundary are a fold from the launch memory (a stretch applies its operations,
  a launch replaces its arrays by what its write-backs leave), and every execution ends with every buffer at the last
  boundary's contents. Here that final state is read at the result buffer as well as at the nine arguments: the result
  holds the last boundary's contents of the last launch's output array, the arguments are as launched.
-/
import proofs.«121527_j44547400794478_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from the launch memory terminates without a fault; at the end the result buffer holds
    the last boundary's contents and every argument array is as launched. -/
theorem run_named : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Named

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.Spec.lean ====
/-
  The layers of the message-passing network, as functions of whole arrays over the extended reals, entry by entry.

  * `lin x w`: the matrix product, entry `(r, q)` the inner product of row `r` of `x` with column `q` of `w`.
  * `relu z`: the positive part, `max z 0` at every entry.
  * `hid inp msg w`: one hidden update, `max (inp + msg · w) 0`.
  * `outl x am w₁ w₂ b`: the read-out layer with its weight matrix already cut in two,
    `max (x · w₁ + am · w₂ + b) 0`, the bias `b` a single row laid along every row.

  The zero these maxima are taken against is the value of the all-zero 32-bit pattern.
-/
import Idealize.ShloMosaic.Lib.ValueIdx
import Idealize.ShloMosaic.PureOps.Ideal.Laws

noncomputable section

open scoped BigOperators

namespace Cert.Spec

open Idealize.ShloMosaic Idealize.ShloMosaic.ValueIdx

/-- The value of the all-zero pattern: the threshold of every positive part below. -/
abbrev zero32 : Ideal .f32 := Ideal.ofBits .f32 0x00000000#32

/-- The matrix product at an entry: row `r` of `x` against column `q` of `w`. -/
def lin {M K N : Nat} (x : FVec Ideal ⟨2, ![M, K]⟩ .f32) (w : FVec Ideal ⟨2, ![K, N]⟩ .f32) :
    FVec Ideal ⟨2, ![M, N]⟩ .f32 :=
  fun i => ∑ k : Fin K, x (ix2 (i 0 : Fin M) k) * w (ix2 k (i 1 : Fin N))

theorem lin_apply {M K N : Nat} (x : FVec Ideal ⟨2, ![M, K]⟩ .f32) (w : FVec Ideal ⟨2, ![K, N]⟩ .f32)
    (r : Fin M) (q : Fin N) : lin x w (ix2 r q) = ∑ k : Fin K, x (ix2 r k) * w (ix2 k q) := rfl

/-- The positive part, entry by entry. -/
def relu {s : Shape} (z : FVec Ideal s .f32) : FVec Ideal s .f32 := fun i => max (z i) zero32

/-- One hidden update: the positive part of the input projection plus the aggregated messages times the weights. -/
def hid {M K : Nat} (inp : FVec Ideal ⟨2, ![M, K]⟩ .f32) (msg : FVec Ideal ⟨2, ![M, K]⟩ .f32)
    (w : FVec Ideal ⟨2, ![K, K]⟩ .f32) : FVec Ideal ⟨2, ![M, K]⟩ .f32 :=
  fun i => max (inp i + lin msg w i) zero32

theorem hid_apply {M K : Nat} (inp msg : FVec Ideal ⟨2, ![M, K]⟩ .f32) (w : FVec Ideal ⟨2, ![K, K]⟩ .f32)
    (r : Fin M) (q : Fin K) :
    hid inp msg w (ix2 r q) = max (inp (ix2 r q) + ∑ k : Fin K, msg (ix2 r k) * w (ix2 k q)) zero32 := rfl

/-- The read-out layer over the two halves of its weight matrix, the bias a single row. -/
def outl {M A K : Nat} (x : FVec Ideal ⟨2, ![M, A]⟩ .f32) (am : FVec Ideal ⟨2, ![M, K]⟩ .f32)
    (w₁ : FVec Ideal ⟨2, ![A, K]⟩ .f32) (w₂ : FVec Ideal ⟨2, ![K, K]⟩ .f32) (b : FVec Ideal ⟨2, ![1, K]⟩ .f32) :
    FVec Ideal ⟨2, ![M, K]⟩ .f32 :=
  fun i => max (lin x w₁ i + lin am w₂ i + b (ix2 (0 : Fin 1) (i 1 : Fin K))) zero32

theorem outl_apply {M A K : Nat} (x : FVec Ideal ⟨2, ![M, A]⟩ .f32) (am : FVec Ideal ⟨2, ![M, K]⟩ .f32)
    (w₁ : FVec Ideal ⟨2, ![A, K]⟩ .f32) (w₂ : FVec Ideal ⟨2, ![K, K]⟩ .f32) (b : FVec Ideal ⟨2, ![1, K]⟩ .f32)
    (r : Fin M) (q : Fin K) :
    outl x am w₁ w₂ b (ix2 r q)
      = max ((∑ k : Fin A, x (ix2 r k) * w₁ (ix2 k q)) + (∑ k : Fin K, am (ix2 r k) * w₂ (ix2 k q))
          + b (ix2 (0 : Fin 1) q)) zero32 := rfl

end Cert.Spec

end
-- ==== Proof.KernelPayloads.lean ====
/-
  What each kernel body computes, read at an entry of its output block, over the extended reals.

  Every body multiplies a block of rows by a small weight matrix that it holds whole, so an entry `(p, q)` of its
  result is an inner product of row `p` of the block with column `q` of the weights, followed by the body's pointwise
  tail: nothing (the input projection), a positive part (the first messages), the addition of the input projection
  and a positive part (a hidden update), or the sum of two such products plus a bias row and a positive part (the
  read-out layer). The products are accumulated into the zero block, which contributes nothing.
-/
import proofs.«121527_j44547400794478_1_alg».proof.Proof.Gen.KernelIdeal.Skeleton
import proofs.«121527_j44547400794478_1_alg».proof.Proof.LibMatmulPlain
import proofs.«121527_j44547400794478_1_alg».proof.Proof.Spec
import Idealize.ShloMosaic.Lib.ValueLayout
import Idealize.ShloMosaic.Lib.Pipeline.Value

noncomputable section

open scoped BigOperators

namespace Cert.KernelIdeal.Payloads

open Cert.KernelIdeal Cert.KernelIdeal.Gen Idealize.ShloMosaic Idealize.ShloMosaic.ValueIdx

/-- The input projection's block: row `p` of the bond features against column `q` of the weights. -/
theorem pay0_1_apply (X : FVec Ideal S4000x147 .f32) (W : FVec Ideal S147x300 .f32) (p : Fin 4000) (q : Fin 300) :
    k0_pay1 (F := Ideal) X W (ix2 p q) = ∑ k : Fin 147, X (ix2 p k) * W (ix2 k q) :=
  Cert.LibMatmulPlain.matmul_plain_zero_apply none X W p q

/-- The first messages' block: the positive part of the input projection. -/
theorem pay0_2_apply (X : FVec Ideal S4000x147 .f32) (W : FVec Ideal S147x300 .f32) (p : Fin 4000) (q : Fin 300) :
    k0_pay2 (F := Ideal) X W (ix2 p q) = max (∑ k : Fin 147, X (ix2 p k) * W (ix2 k q)) Cert.Spec.zero32 :=
  congrArg (fun z => max z Cert.Spec.zero32) (pay0_1_apply X W p q)

/-- A hidden update's block (first of the two updates). -/
theorem pay1_apply (X0 : FVec Ideal S4000x300 .f32) (W : FVec Ideal S300x300 .f32) (X1 : FVec Ideal S4000x300 .f32)
    (p : Fin 4000) (q : Fin 300) :
    k1_pay1 (F := Ideal) X0 W X1 (ix2 p q)
      = max (X1 (ix2 p q) + ∑ k : Fin 300, X0 (ix2 p k) * W (ix2 k q)) Cert.Spec.zero32 := by
  unfold k1_pay1
  simp only [shapeCast_self]
  exact congrArg (fun z => max (X1 (ix2 p q) + z) Cert.Spec.zero32)
    (Cert.LibMatmulPlain.matmul_plain_zero_apply none X0 W p q)

/-- A hidden update's block (second of the two updates: the same body). -/
theorem pay2_apply (X0 : FVec Ideal S4000x300 .f32) (W : FVec Ideal S300x300 .f32) (X1 : FVec Ideal S4000x300 .f32)
    (p : Fin 4000) (q : Fin 300) :
    k2_pay1 (F := Ideal) X0 W X1 (ix2 p q)
      = max (X1 (ix2 p q) + ∑ k : Fin 300, X0 (ix2 p k) * W (ix2 k q)) Cert.Spec.zero32 := by
  unfold k2_pay1
  simp only [shapeCast_self]
  exact congrArg (fun z => max (X1 (ix2 p q) + z) Cert.Spec.zero32)
    (Cert.LibMatmulPlain.matmul_plain_zero_apply none X0 W p q)

/-- The read-out layer's block: atom features against the upper part of the weights, aggregated messages against the
    lower part, the bias row, a positive part. -/
theorem pay3_apply (A : FVec Ideal S4000x133 .f32) (W1 : FVec Ideal S133x300 .f32) (B : FVec Ideal S4000x300 .f32)
    (W2 : FVec Ideal S300x300 .f32) (b : FVec Ideal S1x300 .f32) (p : Fin 4000) (q : Fin 300) :
    k3_pay1 (F := Ideal) A W1 B W2 b (ix2 p q)
      = max ((∑ k : Fin 133, A (ix2 p k) * W1 (ix2 k q)) + (∑ k : Fin 300, B (ix2 p k) * W2 (ix2 k q))
          + b (ix2 (0 : Fin 1) q)) Cert.Spec.zero32 := by
  unfold k3_pay1
  simp only [shapeCast_self]
  refine congrArg (fun z => max z Cert.Spec.zero32) ?_
  exact congrArg₂ (· + ·)
    (congrArg₂ (· + ·) (Cert.LibMatmulPlain.matmul_plain_zero_apply none A W1 p q)
      (Cert.LibMatmulPlain.matmul_plain_zero_apply none B W2 p q))
    (broadcastTo_1b_ab_apply b broadcasts_S1x300_S4000x300 p q)

end Cert.KernelIdeal.Payloads

end
-- ==== Proof.Region0.lean ====
/-
  The first launch: the input projection and the first messages, as whole arrays.

  The grid has fifty points; point `t` stages rows `4000·t … 4000·t + 3999` of the bond features beside the whole weight
  matrix and writes back the same rows of both outputs. So row `r` of either output depends only on row `r` of the bond
  features, the blocks tile the 200000 rows, and each output array ends as one function of the two arrays the launch
  found: the matrix product, and its positive part. The arrays the launch finds are a parameter here.
-/
import proofs.«121527_j44547400794478_1_alg».proof.Proof.Gen.KernelIdeal.Frame
import proofs.«121527_j44547400794478_1_alg».proof.Proof.KernelPayloads
import Idealize.ShloMosaic.Lib.Pipeline.Value

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The bodies' rectangles start at the origin. -/
theorem hz : (![0, 0] : Fin 2 → Nat) = fun _ => 0 := funext fun a => by fin_cases a <;> rfl

/-- The printed block-index maps over the fifty points: the row-blocked windows sit at block `t`, the weights at the
    origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- An entry of the product block is the product's entry of the whole arrays, when the block's row is the array's row
    and the weights are the weights. -/
theorem lin_point (X : FVec Ideal S4000x147 .f32) (W : FVec Ideal S147x300 .f32)
    (x : FVec Ideal S200000x147 .f32) (w : FVec Ideal S147x300 .f32)
    (j : S4000x300.Idx) (i : S200000x300.Idx)
    (hX : ∀ k : Fin 147, X (ix2 (j 0 : Fin 4000) k) = x (ix2 (i 0 : Fin 200000) k))
    (hW : ∀ k : Fin 147, W (ix2 k (j 1 : Fin 300)) = w (ix2 k (i 1 : Fin 300))) :
    k0_pay1 (F := Ideal) X W j = Cert.Spec.lin x w i := by
  obtain ⟨p, q, rfl⟩ : ∃ (p : Fin 4000) (q : Fin 300), j = ix2 p q := ⟨j 0, j 1, eq_ix2 j⟩
  obtain ⟨P, Q, rfl⟩ : ∃ (P : Fin 200000) (Q : Fin 300), i = ix2 P Q := ⟨i 0, i 1, eq_ix2 i⟩
  rw [Payloads.pay0_1_apply, Cert.Spec.lin_apply]
  exact Finset.sum_congr rfl fun k _ => congrArg₂ (· * ·) (hX k) (hW k)

/-- The same for the first messages: the positive part on both sides. -/
theorem relu_point (X : FVec Ideal S4000x147 .f32) (W : FVec Ideal S147x300 .f32)
    (x : FVec Ideal S200000x147 .f32) (w : FVec Ideal S147x300 .f32)
    (j : S4000x300.Idx) (i : S200000x300.Idx)
    (hX : ∀ k : Fin 147, X (ix2 (j 0 : Fin 4000) k) = x (ix2 (i 0 : Fin 200000) k))
    (hW : ∀ k : Fin 147, W (ix2 k (j 1 : Fin 300)) = w (ix2 k (i 1 : Fin 300))) :
    k0_pay2 (F := Ideal) X W j = Cert.Spec.relu (Cert.Spec.lin x w) i :=
  congrArg (fun z => max z Cert.Spec.zero32) (lin_point X W x w j i hX hW)

/-- A row of the bond-feature block at point `t` is the row of the array under it. -/
theorem read_rows (c : Dev nD) (t : Fin cfg0.N) (a0 : Nat) (h0 : win0_0.index t (0 : Fin 2) = a0) (h1 : win0_0.index t (1 : Fin 2) = 0)
    (p : Fin 4000) (k : Fin 147) (P : Fin 200000) (hP : P.val = a0 * 4000 + p.val) :
    iblk0 V c 0 t (ix2 p k) = V c main_arg1 (ix2 P k) := by
  show V c main_arg1 (((cfg0.win 0).blk t).view.emb (ix2 p k)) = V c main_arg1 (ix2 P k)
  refine congrArg _ (funext fun a => Fin.ext ?_)
  match a with
  | ⟨0, _⟩ => show win0_0.index t (0 : Fin 2) * 4000 + 1 * p.val = P.val; omega
  | ⟨1, _⟩ => show win0_0.index t (1 : Fin 2) * 147 + 1 * k.val = k.val; omega

/-- The weight block at any point is the weight array. -/
theorem read_weights (c : Dev nD) (t : Fin cfg0.N) (h0 : win0_1.index t (0 : Fin 2) = 0) (h1 : win0_1.index t (1 : Fin 2) = 0)
    (k : Fin 147) (q : Fin 300) :
    iblk0 V c 1 t (ix2 k q) = V c main_arg5 (ix2 k q) := by
  show V c main_arg5 (((cfg0.win 1).blk t).view.emb (ix2 k q)) = V c main_arg5 (ix2 k q)
  refine congrArg _ (funext fun a => Fin.ext ?_)
  match a with
  | ⟨0, _⟩ => show win0_1.index t (0 : Fin 2) * 147 + 1 * k.val = k.val; omega
  | ⟨1, _⟩ => show win0_1.index t (1 : Fin 2) * 300 + 1 * q.val = q.val; omega

/-- What point `t` writes back to the input projection's array is block `t` of the product of the two arrays. -/
theorem flushed2_eq (c : Dev nD) (t : Fin cfg0.N) :
    (dat0 V c).flushed 2 t
      = ((cfg0.win 2).blk t).view.read (Elt Ideal) (Cert.Spec.lin (V c main_arg1) (V c main_arg5)) := by
  show (cfg0.win 2).cut (grid0.coords t) ((dat0 V c).after 2 t) = _
  rw [after0_2]
  unfold out0_2
  rw [View.canon_unit_zero hz]
  simp only [View.ld_unit_zero (S := S4000x147) hz, View.ld_unit_zero (S := S147x300) hz]
  obtain ⟨e00, e01, e10, e11, e20, e21, -, -⟩ := idx_facts t
  funext j
  show k0_pay1 (iblk0 V c 0 t) (iblk0 V c 1 t) j
    = Cert.Spec.lin (V c main_arg1) (V c main_arg5) (((cfg0.win 2).blk t).view.emb j)
  refine lin_point (iblk0 V c 0 t) (iblk0 V c 1 t) (V c main_arg1) (V c main_arg5) j _ (fun k => ?_) (fun k => ?_)
  · refine read_rows V c t t.val e00 e01 _ k _ ?_
    show win0_2.index t (0 : Fin 2) * 4000 + 1 * (j 0).val = t.val * 4000 + (j 0).val
    omega
  · refine (read_weights V c t e10 e11 k _).trans (congrArg _ (funext fun a => Fin.ext ?_))
    match a with
    | ⟨0, _⟩ => rfl
    | ⟨1, _⟩ => show (j 1).val = win0_2.index t (1 : Fin 2) * 300 + 1 * (j 1).val; omega

/-- What point `t` writes back to the first messages' array is block `t` of the positive part of the product. -/
theorem flushed3_eq (c : Dev nD) (t : Fin cfg0.N) :
    (dat0 V c).flushed 3 t
      = ((cfg0.win 3).blk t).view.read (Elt Ideal)
          (Cert.Spec.relu (Cert.Spec.lin (V c main_arg1) (V c main_arg5))) := by
  show (cfg0.win 3).cut (grid0.coords t) ((dat0 V c).after 3 t) = _
  rw [after0_3]
  unfold out0_3
  rw [View.canon_unit_zero hz]
  simp only [View.ld_unit_zero (S := S4000x147) hz, View.ld_unit_zero (S := S147x300) hz]
  obtain ⟨e00, e01, e10, e11, -, -, e30, e31⟩ := idx_facts t
  funext j
  show k0_pay2 (iblk0 V c 0 t) (iblk0 V c 1 t) j
    = Cert.Spec.relu (Cert.Spec.lin (V c main_arg1) (V c main_arg5)) (((cfg0.win 3).blk t).view.emb j)
  refine relu_point (iblk0 V c 0 t) (iblk0 V c 1 t) (V c main_arg1) (V c main_arg5) j _ (fun k => ?_) (fun k => ?_)
  · refine read_rows V c t t.val e00 e01 _ k _ ?_
    show win0_3.index t (0 : Fin 2) * 4000 + 1 * (j 0).val = t.val * 4000 + (j 0).val
    omega
  · refine (read_weights V c t e10 e11 k _).trans (congrArg _ (funext fun a => Fin.ext ?_))
    match a with
    | ⟨0, _⟩ => rfl
    | ⟨1, _⟩ => show (j 1).val = win0_3.index t (1 : Fin 2) * 300 + 1 * (j 1).val; omega

/-- An index of the input projection's array lies in point `t`'s block iff each coordinate lies in the block's range. -/
theorem mem_blk2 (t : Fin cfg0.N) (i : S200000x300.Idx) :
    i ∈ ((cfg0.win 2).blk t).view.set ↔ ∀ a : Fin 2, win0_2.index t a * S4000x300.size a ≤ (i a).val
      ∧ (i a).val < win0_2.index t a * S4000x300.size a + S4000x300.size a := by
  show i ∈ ((View.whole main_v0_0).slice (win0_2.rect t)).set ↔ _
  rw [View.set_slice_whole, Rect.mem_set_unit]
  exact Iff.rfl

theorem mem_blk3 (t : Fin cfg0.N) (i : S200000x300.Idx) :
    i ∈ ((cfg0.win 3).blk t).view.set ↔ ∀ a : Fin 2, win0_3.index t a * S4000x300.size a ≤ (i a).val
      ∧ (i a).val < win0_3.index t a * S4000x300.size a + S4000x300.size a := by
  show i ∈ ((View.whole main_v0_1).slice (win0_3.rect t)).set ↔ _
  rw [View.set_slice_whole, Rect.mem_set_unit]
  exact Iff.rfl

/-- Row `r` is written by point `r / 4000`: the blocks tile the rows. -/
theorem cover2 (i : S200000x300.Idx) :
    ∃ t : Fin cfg0.N, (cfg0.win 2).flush t = true ∧ i ∈ ((cfg0.win 2).blk t).view.set := by
  have h0 : (i 0).val < 200000 := idx2_lt0 i
  have h1 : (i 1).val < 300 := idx2_lt1 i
  have hN : cfg0.N = 50 := N_0
  have ht : (i 0).val / 4000 < cfg0.N := by omega
  obtain ⟨-, -, -, -, e20, e21, -, -⟩ := idx_facts ⟨(i 0).val / 4000, ht⟩
  refine ⟨⟨(i 0).val / 4000, ht⟩, flush0_2 _, ?_⟩
  rw [mem_blk2]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e20]; show (i 0).val / 4000 * 4000 ≤ (i 0).val ∧ (i 0).val < (i 0).val / 4000 * 4000 + 4000; omega
  | ⟨1, _⟩ =>
    show win0_2.index ⟨(i 0).val / 4000, ht⟩ (1 : Fin 2) * 300 ≤ (i 1).val
      ∧ (i 1).val < win0_2.index ⟨(i 0).val / 4000, ht⟩ (1 : Fin 2) * 300 + 300
    rw [e21]; omega

theorem cover3 (i : S200000x300.Idx) :
    ∃ t : Fin cfg0.N, (cfg0.win 3).flush t = true ∧ i ∈ ((cfg0.win 3).blk t).view.set := by
  have h0 : (i 0).val < 200000 := idx2_lt0 i
  have h1 : (i 1).val < 300 := idx2_lt1 i
  have hN : cfg0.N = 50 := N_0
  have ht : (i 0).val / 4000 < cfg0.N := by omega
  obtain ⟨-, -, -, -, -, -, e30, e31⟩ := idx_facts ⟨(i 0).val / 4000, ht⟩
  refine ⟨⟨(i 0).val / 4000, ht⟩, flush0_3 _, ?_⟩
  rw [mem_blk3]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, ht⟩ (1 : Fin 2) * 300 ≤ (i 1).val
      ∧ (i 1).val < win0_3.index ⟨(i 0).val / 4000, ht⟩ (1 : Fin 2) * 300 + 300
    rw [e31]; omega

/-- After the launch the input projection's array is the product of the bond features with the weights. -/
theorem final_inp (c : Dev nD) :
    (dat0 V c).arrAt 2 cfg0.N = Cert.Spec.lin (V c main_arg1) (V c main_arg5) :=
  (dat0 V c).arrAt_eq_of_cover 2 _ (fun t _ => flushed2_eq V c t) cover2

/-- After the launch the first messages' array is the positive part of that product. -/
theorem final_msg (c : Dev nD) :
    (dat0 V c).arrAt 3 cfg0.N = Cert.Spec.relu (Cert.Spec.lin (V c main_arg1) (V c main_arg5)) :=
  (dat0 V c).arrAt_eq_of_cover 3 _ (fun t _ => flushed3_eq V c t) cover3

end Cert.KernelIdeal.Region0

end
-- ==== Proof.Region1.lean ====
/-
  The first hidden update, as a whole array.

  The grid has fifty points; point `t` stages rows `4000·t … 4000·t + 3999` of the incoming messages and of the input
  projection beside the whole weight matrix, and writes back the same rows of the output: the positive part of the
  input projection plus the messages times the weights. Row `r` of the output depends only on rows `r` of the two
  row-blocked arrays, the blocks tile the 200000 rows, so the output array ends as one function of the three arrays the
  launch found. Those arrays are a parameter here.
-/
import proofs.«121527_j44547400794478_1_alg».proof.Proof.Gen.KernelIdeal.Frame
import proofs.«121527_j44547400794478_1_alg».proof.Proof.KernelPayloads
import Idealize.ShloMosaic.Lib.Pipeline.Value

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The bodies' rectangles start at the origin. -/
theorem hz : (![0, 0] : Fin 2 → Nat) = fun _ => 0 := funext fun a => by fin_cases a <;> rfl

/-- The printed block-index maps over the fifty points: the row-blocked windows sit at block `t`, the weights at the
    origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of the updated block is the update's entry of the whole arrays, when the block's rows are the arrays' rows
    and the weights are the weights. -/
theorem hid_point (X0 : FVec Ideal S4000x300 .f32) (W : FVec Ideal S300x300 .f32) (X1 : FVec Ideal S4000x300 .f32)
    (msg inp : FVec Ideal S200000x300 .f32) (w : FVec Ideal S300x300 .f32)
    (j : S4000x300.Idx) (i : S200000x300.Idx)
    (h0 : ∀ k : Fin 300, X0 (ix2 (j 0 : Fin 4000) k) = msg (ix2 (i 0 : Fin 200000) k))
    (h1 : X1 (ix2 (j 0 : Fin 4000) (j 1 : Fin 300)) = inp (ix2 (i 0 : Fin 200000) (i 1 : Fin 300)))
    (hW : ∀ k : Fin 300, W (ix2 k (j 1 : Fin 300)) = w (ix2 k (i 1 : Fin 300))) :
    k1_pay1 (F := Ideal) X0 W X1 j = Cert.Spec.hid inp msg w i := by
  obtain ⟨p, q, rfl⟩ : ∃ (p : Fin 4000) (q : Fin 300), j = ix2 p q := ⟨j 0, j 1, eq_ix2 j⟩
  obtain ⟨P, Q, rfl⟩ : ∃ (P : Fin 200000) (Q : Fin 300), i = ix2 P Q := ⟨i 0, i 1, eq_ix2 i⟩
  have h1' : X1 (ix2 p q) = inp (ix2 P Q) := h1
  rw [Payloads.pay1_apply, Cert.Spec.hid_apply, h1']
  exact congrArg (fun z => max (inp (ix2 P Q) + z) Cert.Spec.zero32)
    (Finset.sum_congr rfl fun k _ => congrArg₂ (· * ·) (h0 k) (hW k))

/-- An entry of the message block at point `t` is the entry of the array under it. -/
theorem read_msg (c : Dev nD) (t : Fin cfg1.N) (a0 : Nat) (h0 : win1_0.index t (0 : Fin 2) = a0) (h1 : win1_0.index t (1 : Fin 2) = 0)
    (p : Fin 4000) (k : Fin 300) (P : Fin 200000) (hP : P.val = a0 * 4000 + p.val) :
    iblk1 V c 0 t (ix2 p k) = V c main_v25 (ix2 P k) := by
  show V c main_v25 (((cfg1.win 0).blk t).view.emb (ix2 p k)) = V c main_v25 (ix2 P k)
  refine congrArg _ (funext fun a => Fin.ext ?_)
  match a with
  | ⟨0, _⟩ => show win1_0.index t (0 : Fin 2) * 4000 + 1 * p.val = P.val; omega
  | ⟨1, _⟩ => show win1_0.index t (1 : Fin 2) * 300 + 1 * k.val = k.val; omega

/-- An entry of the input-projection block at point `t` is the entry of the array under it. -/
theorem read_inp (c : Dev nD) (t : Fin cfg1.N) (a0 : Nat) (h0 : win1_1.index t (0 : Fin 2) = a0) (h1 : win1_1.index t (1 : Fin 2) = 0)
    (p : Fin 4000) (k : Fin 300) (P : Fin 200000) (hP : P.val = a0 * 4000 + p.val) :
    iblk1 V c 1 t (ix2 p k) = V c main_v0_0 (ix2 P k) := by
  show V c main_v0_0 (((cfg1.win 1).blk t).view.emb (ix2 p k)) = V c main_v0_0 (ix2 P k)
  refine congrArg _ (funext fun a => Fin.ext ?_)
  match a with
  | ⟨0, _⟩ => show win1_1.index t (0 : Fin 2) * 4000 + 1 * p.val = P.val; omega
  | ⟨1, _⟩ => show win1_1.index t (1 : Fin 2) * 300 + 1 * k.val = k.val; omega

/-- The weight block at any point is the weight array. -/
theorem read_weights (c : Dev nD) (t : Fin cfg1.N) (h0 : win1_2.index t (0 : Fin 2) = 0) (h1 : win1_2.index t (1 : Fin 2) = 0)
    (k : Fin 300) (q : Fin 300) :
    iblk1 V c 2 t (ix2 k q) = V c main_arg6 (ix2 k q) := by
  show V c main_arg6 (((cfg1.win 2).blk t).view.emb (ix2 k q)) = V c main_arg6 (ix2 k q)
  refine congrArg _ (funext fun a => Fin.ext ?_)
  match a with
  | ⟨0, _⟩ => show win1_2.index t (0 : Fin 2) * 300 + 1 * k.val = k.val; omega
  | ⟨1, _⟩ => show win1_2.index t (1 : Fin 2) * 300 + 1 * q.val = q.val; omega

/-- What point `t` writes back is block `t` of the hidden update of the three arrays the launch found. -/
theorem flushed3_eq (c : Dev nD) (t : Fin cfg1.N) :
    (dat1 V c).flushed 3 t
      = ((cfg1.win 3).blk t).view.read (Elt Ideal)
          (Cert.Spec.hid (V c main_v0_0) (V c main_v25) (V c main_arg6)) := by
  show (cfg1.win 3).cut (grid1.coords t) ((dat1 V c).after 3 t) = _
  rw [after1_3]
  unfold out1_3
  rw [View.canon_unit_zero hz]
  simp only [View.ld_unit_zero (S := S4000x300) hz, View.ld_unit_zero (S := S300x300) hz]
  obtain ⟨e00, e01, e10, e11, e20, e21, e30, e31⟩ := idx_facts t
  funext j
  show k1_pay1 (iblk1 V c 0 t) (iblk1 V c 2 t) (iblk1 V c 1 t) j
    = Cert.Spec.hid (V c main_v0_0) (V c main_v25) (V c main_arg6) (((cfg1.win 3).blk t).view.emb j)
  have hrow : ((((cfg1.win 3).blk t).view.emb j) 0).val = t.val * 4000 + (j 0).val := by
    show win1_3.index t (0 : Fin 2) * 4000 + 1 * (j 0).val = t.val * 4000 + (j 0).val
    omega
  have hcol : ((((cfg1.win 3).blk t).view.emb j) 1).val = (j 1).val := by
    show win1_3.index t (1 : Fin 2) * 300 + 1 * (j 1).val = (j 1).val
    omega
  refine hid_point (iblk1 V c 0 t) (iblk1 V c 2 t) (iblk1 V c 1 t) (V c main_v25) (V c main_v0_0) (V c main_arg6) j _
    (fun k => ?_) ?_ (fun k => ?_)
  · exact read_msg V c t t.val e00 e01 _ k _ hrow
  · refine (read_inp V c t t.val e10 e11 _ _ _ hrow).trans (congrArg _ (funext fun a => Fin.ext ?_))
    match a with
    | ⟨0, _⟩ => rfl
    | ⟨1, _⟩ => exact hcol.symm
  · refine (read_weights V c t e20 e21 k _).trans (congrArg _ (funext fun a => Fin.ext ?_))
    match a with
    | ⟨0, _⟩ => rfl
    | ⟨1, _⟩ => exact hcol.symm

/-- An index of the output array lies in point `t`'s block iff each coordinate lies in the block's range. -/
theorem mem_blk3 (t : Fin cfg1.N) (i : S200000x300.Idx) :
    i ∈ ((cfg1.win 3).blk t).view.set ↔ ∀ a : Fin 2, win1_3.index t a * S4000x300.size a ≤ (i a).val
      ∧ (i a).val < win1_3.index t a * S4000x300.size a + S4000x300.size a := by
  show i ∈ ((View.whole main_v26).slice (win1_3.rect t)).set ↔ _
  rw [View.set_slice_whole, Rect.mem_set_unit]
  exact Iff.rfl

/-- Row `r` is written by point `r / 4000`: the blocks tile the rows. -/
theorem cover3 (i : S200000x300.Idx) :
    ∃ t : Fin cfg1.N, (cfg1.win 3).flush t = true ∧ i ∈ ((cfg1.win 3).blk t).view.set := by
  have h0 : (i 0).val < 200000 := idx2_lt0 i
  have h1 : (i 1).val < 300 := idx2_lt1 i
  have hN : cfg1.N = 50 := N_1
  have ht : (i 0).val / 4000 < cfg1.N := by omega
  obtain ⟨-, -, -, -, -, -, e30, e31⟩ := idx_facts ⟨(i 0).val / 4000, ht⟩
  refine ⟨⟨(i 0).val / 4000, ht⟩, flush1_3 _, ?_⟩
  rw [mem_blk3]
  intro a
  match a with
  | ⟨0, _⟩ =>
    show win1_3.index ⟨(i 0).val / 4000, ht⟩ (0 : Fin 2) * 4000 ≤ (i 0).val
      ∧ (i 0).val < win1_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win1_3.index ⟨(i 0).val / 4000, ht⟩ (1 : Fin 2) * 300 ≤ (i 1).val
      ∧ (i 1).val < win1_3.index ⟨(i 0).val / 4000, ht⟩ (1 : Fin 2) * 300 + 300
    rw [e31]; omega

/-- After the launch the output array is the hidden update of the input projection, the incoming messages and the
    weights, as the launch found them. -/
theorem final_hid (c : Dev nD) :
    (dat1 V c).arrAt 3 cfg1.N = Cert.Spec.hid (V c main_v0_0) (V c main_v25) (V c main_arg6) :=
  (dat1 V c).arrAt_eq_of_cover 3 _ (fun t _ => flushed3_eq V c t) cover3

end Cert.KernelIdeal.Region1

end
-- ==== Proof.Region2.lean ====
/-
  The second hidden update, as a whole array.

  The grid has fifty points; point `t` stages rows `4000·t … 4000·t + 3999` of the incoming messages and of the input
  projection beside the whole weight matrix, and writes back the same rows of the output: the positive part of the
  input projection plus the messages times the weights. Row `r` of the output depends only on rows `r` of the two
  row-blocked arrays, the blocks tile the 200000 rows, so the output array ends as one function of the three arrays the
  launch found. Those arrays are a parameter here.
-/
import proofs.«121527_j44547400794478_1_alg».proof.Proof.Gen.KernelIdeal.Frame
import proofs.«121527_j44547400794478_1_alg».proof.Proof.KernelPayloads
import Idealize.ShloMosaic.Lib.Pipeline.Value

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The bodies' rectangles start at the origin. -/
theorem hz : (![0, 0] : Fin 2 → Nat) = fun _ => 0 := funext fun a => by fin_cases a <;> rfl

/-- The printed block-index maps over the fifty points: the row-blocked windows sit at block `t`, the weights at the
    origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- An entry of the updated block is the update's entry of the whole arrays, when the block's rows are the arrays' rows
    and the weights are the weights. -/
theorem hid_point (X0 : FVec Ideal S4000x300 .f32) (W : FVec Ideal S300x300 .f32) (X1 : FVec Ideal S4000x300 .f32)
    (msg inp : FVec Ideal S200000x300 .f32) (w : FVec Ideal S300x300 .f32)
    (j : S4000x300.Idx) (i : S200000x300.Idx)
    (h0 : ∀ k : Fin 300, X0 (ix2 (j 0 : Fin 4000) k) = msg (ix2 (i 0 : Fin 200000) k))
    (h1 : X1 (ix2 (j 0 : Fin 4000) (j 1 : Fin 300)) = inp (ix2 (i 0 : Fin 200000) (i 1 : Fin 300)))
    (hW : ∀ k : Fin 300, W (ix2 k (j 1 : Fin 300)) = w (ix2 k (i 1 : Fin 300))) :
    k2_pay1 (F := Ideal) X0 W X1 j = Cert.Spec.hid inp msg w i := by
  obtain ⟨p, q, rfl⟩ : ∃ (p : Fin 4000) (q : Fin 300), j = ix2 p q := ⟨j 0, j 1, eq_ix2 j⟩
  obtain ⟨P, Q, rfl⟩ : ∃ (P : Fin 200000) (Q : Fin 300), i = ix2 P Q := ⟨i 0, i 1, eq_ix2 i⟩
  have h1' : X1 (ix2 p q) = inp (ix2 P Q) := h1
  rw [Payloads.pay2_apply, Cert.Spec.hid_apply, h1']
  exact congrArg (fun z => max (inp (ix2 P Q) + z) Cert.Spec.zero32)
    (Finset.sum_congr rfl fun k _ => congrArg₂ (· * ·) (h0 k) (hW k))

/-- An entry of the message block at point `t` is the entry of the array under it. -/
theorem read_msg (c : Dev nD) (t : Fin cfg2.N) (a0 : Nat) (h0 : win2_0.index t (0 : Fin 2) = a0) (h1 : win2_0.index t (1 : Fin 2) = 0)
    (p : Fin 4000) (k : Fin 300) (P : Fin 200000) (hP : P.val = a0 * 4000 + p.val) :
    iblk2 V c 0 t (ix2 p k) = V c main_v49 (ix2 P k) := by
  show V c main_v49 (((cfg2.win 0).blk t).view.emb (ix2 p k)) = V c main_v49 (ix2 P k)
  refine congrArg _ (funext fun a => Fin.ext ?_)
  match a with
  | ⟨0, _⟩ => show win2_0.index t (0 : Fin 2) * 4000 + 1 * p.val = P.val; omega
  | ⟨1, _⟩ => show win2_0.index t (1 : Fin 2) * 300 + 1 * k.val = k.val; omega

/-- An entry of the input-projection block at point `t` is the entry of the array under it. -/
theorem read_inp (c : Dev nD) (t : Fin cfg2.N) (a0 : Nat) (h0 : win2_1.index t (0 : Fin 2) = a0) (h1 : win2_1.index t (1 : Fin 2) = 0)
    (p : Fin 4000) (k : Fin 300) (P : Fin 200000) (hP : P.val = a0 * 4000 + p.val) :
    iblk2 V c 1 t (ix2 p k) = V c main_v0_0 (ix2 P k) := by
  show V c main_v0_0 (((cfg2.win 1).blk t).view.emb (ix2 p k)) = V c main_v0_0 (ix2 P k)
  refine congrArg _ (funext fun a => Fin.ext ?_)
  match a with
  | ⟨0, _⟩ => show win2_1.index t (0 : Fin 2) * 4000 + 1 * p.val = P.val; omega
  | ⟨1, _⟩ => show win2_1.index t (1 : Fin 2) * 300 + 1 * k.val = k.val; omega

/-- The weight block at any point is the weight array. -/
theorem read_weights (c : Dev nD) (t : Fin cfg2.N) (h0 : win2_2.index t (0 : Fin 2) = 0) (h1 : win2_2.index t (1 : Fin 2) = 0)
    (k : Fin 300) (q : Fin 300) :
    iblk2 V c 2 t (ix2 k q) = V c main_arg6 (ix2 k q) := by
  show V c main_arg6 (((cfg2.win 2).blk t).view.emb (ix2 k q)) = V c main_arg6 (ix2 k q)
  refine congrArg _ (funext fun a => Fin.ext ?_)
  match a with
  | ⟨0, _⟩ => show win2_2.index t (0 : Fin 2) * 300 + 1 * k.val = k.val; omega
  | ⟨1, _⟩ => show win2_2.index t (1 : Fin 2) * 300 + 1 * q.val = q.val; omega

/-- What point `t` writes back is block `t` of the hidden update of the three arrays the launch found. -/
theorem flushed3_eq (c : Dev nD) (t : Fin cfg2.N) :
    (dat2 V c).flushed 3 t
      = ((cfg2.win 3).blk t).view.read (Elt Ideal)
          (Cert.Spec.hid (V c main_v0_0) (V c main_v49) (V c main_arg6)) := by
  show (cfg2.win 3).cut (grid2.coords t) ((dat2 V c).after 3 t) = _
  rw [after2_3]
  unfold out2_3
  rw [View.canon_unit_zero hz]
  simp only [View.ld_unit_zero (S := S4000x300) hz, View.ld_unit_zero (S := S300x300) hz]
  obtain ⟨e00, e01, e10, e11, e20, e21, e30, e31⟩ := idx_facts t
  funext j
  show k2_pay1 (iblk2 V c 0 t) (iblk2 V c 2 t) (iblk2 V c 1 t) j
    = Cert.Spec.hid (V c main_v0_0) (V c main_v49) (V c main_arg6) (((cfg2.win 3).blk t).view.emb j)
  have hrow : ((((cfg2.win 3).blk t).view.emb j) 0).val = t.val * 4000 + (j 0).val := by
    show win2_3.index t (0 : Fin 2) * 4000 + 1 * (j 0).val = t.val * 4000 + (j 0).val
    omega
  have hcol : ((((cfg2.win 3).blk t).view.emb j) 1).val = (j 1).val := by
    show win2_3.index t (1 : Fin 2) * 300 + 1 * (j 1).val = (j 1).val
    omega
  refine hid_point (iblk2 V c 0 t) (iblk2 V c 2 t) (iblk2 V c 1 t) (V c main_v49) (V c main_v0_0) (V c main_arg6) j _
    (fun k => ?_) ?_ (fun k => ?_)
  · exact read_msg V c t t.val e00 e01 _ k _ hrow
  · refine (read_inp V c t t.val e10 e11 _ _ _ hrow).trans (congrArg _ (funext fun a => Fin.ext ?_))
    match a with
    | ⟨0, _⟩ => rfl
    | ⟨1, _⟩ => exact hcol.symm
  · refine (read_weights V c t e20 e21 k _).trans (congrArg _ (funext fun a => Fin.ext ?_))
    match a with
    | ⟨0, _⟩ => rfl
    | ⟨1, _⟩ => exact hcol.symm

/-- An index of the output array lies in point `t`'s block iff each coordinate lies in the block's range. -/
theorem mem_blk3 (t : Fin cfg2.N) (i : S200000x300.Idx) :
    i ∈ ((cfg2.win 3).blk t).view.set ↔ ∀ a : Fin 2, win2_3.index t a * S4000x300.size a ≤ (i a).val
      ∧ (i a).val < win2_3.index t a * S4000x300.size a + S4000x300.size a := by
  show i ∈ ((View.whole main_v50).slice (win2_3.rect t)).set ↔ _
  rw [View.set_slice_whole, Rect.mem_set_unit]
  exact Iff.rfl

/-- Row `r` is written by point `r / 4000`: the blocks tile the rows. -/
theorem cover3 (i : S200000x300.Idx) :
    ∃ t : Fin cfg2.N, (cfg2.win 3).flush t = true ∧ i ∈ ((cfg2.win 3).blk t).view.set := by
  have h0 : (i 0).val < 200000 := idx2_lt0 i
  have h1 : (i 1).val < 300 := idx2_lt1 i
  have hN : cfg2.N = 50 := N_2
  have ht : (i 0).val / 4000 < cfg2.N := by omega
  obtain ⟨-, -, -, -, -, -, e30, e31⟩ := idx_facts ⟨(i 0).val / 4000, ht⟩
  refine ⟨⟨(i 0).val / 4000, ht⟩, flush2_3 _, ?_⟩
  rw [mem_blk3]
  intro a
  match a with
  | ⟨0, _⟩ =>
    show win2_3.index ⟨(i 0).val / 4000, ht⟩ (0 : Fin 2) * 4000 ≤ (i 0).val
      ∧ (i 0).val < win2_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win2_3.index ⟨(i 0).val / 4000, ht⟩ (1 : Fin 2) * 300 ≤ (i 1).val
      ∧ (i 1).val < win2_3.index ⟨(i 0).val / 4000, ht⟩ (1 : Fin 2) * 300 + 300
    rw [e31]; omega

/-- After the launch the output array is the hidden update of the input projection, the incoming messages and the
    weights, as the launch found them. -/
theorem final_hid (c : Dev nD) :
    (dat2 V c).arrAt 3 cfg2.N = Cert.Spec.hid (V c main_v0_0) (V c main_v49) (V c main_arg6) :=
  (dat2 V c).arrAt_eq_of_cover 3 _ (fun t _ => flushed3_eq V c t) cover3

end Cert.KernelIdeal.Region2

end
-- ==== Proof.Region3.lean ====
/-
  The last launch: the read-out layer, as a whole array.

  The grid has twenty-five points; point `t` stages rows `4000·t … 4000·t + 3999` of the atom features and of the
  per-atom message sums beside the two parts of the weight matrix and the bias row, all three held whole, and writes back
  the same rows of the output: the positive part of atom features times the upper weights plus message sums times the
  lower weights plus the bias. Row `r` of the output depends only on rows `r` of the two row-blocked arrays, the blocks
  tile the 100000 rows, so the output array ends as one function of the five arrays the launch found. Those arrays are
  a parameter here.
-/
import proofs.«121527_j44547400794478_1_alg».proof.Proof.Gen.KernelIdeal.Frame
import proofs.«121527_j44547400794478_1_alg».proof.Proof.KernelPayloads
import Idealize.ShloMosaic.Lib.Pipeline.Value

noncomputable section

open scoped BigOperators

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The bodies' rectangles start at the origin. -/
theorem hz : (![0, 0] : Fin 2 → Nat) = fun _ => 0 := funext fun a => by fin_cases a <;> rfl

/-- The printed block-index maps over the twenty-five points: the row-blocked windows sit at block `t`, the weights and
    the bias at the origin. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- An entry of the read-out block is the read-out's entry of the whole arrays, when the block's rows are the arrays'
    rows and the weights and bias are the weights and bias. -/
theorem out_point (A : FVec Ideal S4000x133 .f32) (W1 : FVec Ideal S133x300 .f32) (B : FVec Ideal S4000x300 .f32)
    (W2 : FVec Ideal S300x300 .f32) (b : FVec Ideal S1x300 .f32)
    (x : FVec Ideal S100000x133 .f32) (am : FVec Ideal S100000x300 .f32) (w₁ : FVec Ideal S133x300 .f32)
    (w₂ : FVec Ideal S300x300 .f32) (b' : FVec Ideal S1x300 .f32)
    (j : S4000x300.Idx) (i : S100000x300.Idx)
    (hA : ∀ k : Fin 133, A (ix2 (j 0 : Fin 4000) k) = x (ix2 (i 0 : Fin 100000) k))
    (hB : ∀ k : Fin 300, B (ix2 (j 0 : Fin 4000) k) = am (ix2 (i 0 : Fin 100000) k))
    (hW1 : ∀ k : Fin 133, W1 (ix2 k (j 1 : Fin 300)) = w₁ (ix2 k (i 1 : Fin 300)))
    (hW2 : ∀ k : Fin 300, W2 (ix2 k (j 1 : Fin 300)) = w₂ (ix2 k (i 1 : Fin 300)))
    (hb : b (ix2 (0 : Fin 1) (j 1 : Fin 300)) = b' (ix2 (0 : Fin 1) (i 1 : Fin 300))) :
    k3_pay1 (F := Ideal) A W1 B W2 b j = Cert.Spec.outl x am w₁ w₂ b' i := by
  obtain ⟨p, q, rfl⟩ : ∃ (p : Fin 4000) (q : Fin 300), j = ix2 p q := ⟨j 0, j 1, eq_ix2 j⟩
  obtain ⟨P, Q, rfl⟩ : ∃ (P : Fin 100000) (Q : Fin 300), i = ix2 P Q := ⟨i 0, i 1, eq_ix2 i⟩
  rw [Payloads.pay3_apply, Cert.Spec.outl_apply]
  refine congrArg (fun z => max z Cert.Spec.zero32) ?_
  exact congrArg₂ (· + ·)
    (congrArg₂ (· + ·) (Finset.sum_congr rfl fun k _ => congrArg₂ (· * ·) (hA k) (hW1 k))
      (Finset.sum_congr rfl fun k _ => congrArg₂ (· * ·) (hB k) (hW2 k)))
    hb

/-- A row of the atom-feature block at point `t` is the row of the array under it. -/
theorem read_atoms (c : Dev nD) (t : Fin cfg3.N) (a0 : Nat) (h0 : win3_0.index t (0 : Fin 2) = a0) (h1 : win3_0.index t (1 : Fin 2) = 0)
    (p : Fin 4000) (k : Fin 133) (P : Fin 100000) (hP : P.val = a0 * 4000 + p.val) :
    iblk3 V c 0 t (ix2 p k) = V c main_arg0 (ix2 P k) := by
  show V c main_arg0 (((cfg3.win 0).blk t).view.emb (ix2 p k)) = V c main_arg0 (ix2 P k)
  refine congrArg _ (funext fun a => Fin.ext ?_)
  match a with
  | ⟨0, _⟩ => show win3_0.index t (0 : Fin 2) * 4000 + 1 * p.val = P.val; omega
  | ⟨1, _⟩ => show win3_0.index t (1 : Fin 2) * 133 + 1 * k.val = k.val; omega

/-- A row of the message-sum block at point `t` is the row of the array under it. -/
theorem read_sums (c : Dev nD) (t : Fin cfg3.N) (a0 : Nat) (h0 : win3_1.index t (0 : Fin 2) = a0) (h1 : win3_1.index t (1 : Fin 2) = 0)
    (p : Fin 4000) (k : Fin 300) (P : Fin 100000) (hP : P.val = a0 * 4000 + p.val) :
    iblk3 V c 1 t (ix2 p k) = V c main_v58 (ix2 P k) := by
  show V c main_v58 (((cfg3.win 1).blk t).view.emb (ix2 p k)) = V c main_v58 (ix2 P k)
  refine congrArg _ (funext fun a => Fin.ext ?_)
  match a with
  | ⟨0, _⟩ => show win3_1.index t (0 : Fin 2) * 4000 + 1 * p.val = P.val; omega
  | ⟨1, _⟩ => show win3_1.index t (1 : Fin 2) * 300 + 1 * k.val = k.val; omega

/-- The upper weight block at any point is the upper weight array. -/
theorem read_upper (c : Dev nD) (t : Fin cfg3.N) (h0 : win3_2.index t (0 : Fin 2) = 0) (h1 : win3_2.index t (1 : Fin 2) = 0)
    (k : Fin 133) (q : Fin 300) :
    iblk3 V c 2 t (ix2 k q) = V c main_v1 (ix2 k q) := by
  show V c main_v1 (((cfg3.win 2).blk t).view.emb (ix2 k q)) = V c main_v1 (ix2 k q)
  refine congrArg _ (funext fun a => Fin.ext ?_)
  match a with
  | ⟨0, _⟩ => show win3_2.index t (0 : Fin 2) * 133 + 1 * k.val = k.val; omega
  | ⟨1, _⟩ => show win3_2.index t (1 : Fin 2) * 300 + 1 * q.val = q.val; omega

/-- The lower weight block at any point is the lower weight array. -/
theorem read_lower (c : Dev nD) (t : Fin cfg3.N) (h0 : win3_3.index t (0 : Fin 2) = 0) (h1 : win3_3.index t (1 : Fin 2) = 0)
    (k : Fin 300) (q : Fin 300) :
    iblk3 V c 3 t (ix2 k q) = V c main_v2 (ix2 k q) := by
  show V c main_v2 (((cfg3.win 3).blk t).view.emb (ix2 k q)) = V c main_v2 (ix2 k q)
  refine congrArg _ (funext fun a => Fin.ext ?_)
  match a with
  | ⟨0, _⟩ => show win3_3.index t (0 : Fin 2) * 300 + 1 * k.val = k.val; omega
  | ⟨1, _⟩ => show win3_3.index t (1 : Fin 2) * 300 + 1 * q.val = q.val; omega

/-- The bias block at any point is the bias row. -/
theorem read_bias (c : Dev nD) (t : Fin cfg3.N) (h0 : win3_4.index t (0 : Fin 2) = 0) (h1 : win3_4.index t (1 : Fin 2) = 0)
    (u : Fin 1) (q : Fin 300) :
    iblk3 V c 4 t (ix2 u q) = V c main_v59 (ix2 u q) := by
  show V c main_v59 (((cfg3.win 4).blk t).view.emb (ix2 u q)) = V c main_v59 (ix2 u q)
  refine congrArg _ (funext fun a => Fin.ext ?_)
  match a with
  | ⟨0, _⟩ => show win3_4.index t (0 : Fin 2) * 1 + 1 * u.val = u.val; omega
  | ⟨1, _⟩ => show win3_4.index t (1 : Fin 2) * 300 + 1 * q.val = q.val; omega

/-- What point `t` writes back is block `t` of the read-out layer of the five arrays the launch found. -/
theorem flushed5_eq (c : Dev nD) (t : Fin cfg3.N) :
    (dat3 V c).flushed 5 t
      = ((cfg3.win 5).blk t).view.read (Elt Ideal)
          (Cert.Spec.outl (V c main_arg0) (V c main_v58) (V c main_v1) (V c main_v2) (V c main_v59)) := by
  show (cfg3.win 5).cut (grid3.coords t) ((dat3 V c).after 5 t) = _
  rw [after3_5]
  unfold out3_5
  rw [View.canon_unit_zero hz]
  simp only [View.ld_unit_zero (S := S4000x133) hz, View.ld_unit_zero (S := S4000x300) hz,
    View.ld_unit_zero (S := S133x300) hz, View.ld_unit_zero (S := S300x300) hz, View.ld_unit_zero (S := S1x300) hz]
  obtain ⟨e00, e01, e10, e11, e20, e21, e30, e31, e40, e41, e50, e51⟩ := idx_facts t
  funext j
  show k3_pay1 (iblk3 V c 0 t) (iblk3 V c 2 t) (iblk3 V c 1 t) (iblk3 V c 3 t) (iblk3 V c 4 t) j
    = Cert.Spec.outl (V c main_arg0) (V c main_v58) (V c main_v1) (V c main_v2) (V c main_v59)
        (((cfg3.win 5).blk t).view.emb j)
  have hrow : ((((cfg3.win 5).blk t).view.emb j) 0).val = t.val * 4000 + (j 0).val := by
    show win3_5.index t (0 : Fin 2) * 4000 + 1 * (j 0).val = t.val * 4000 + (j 0).val
    omega
  have hcol : ((((cfg3.win 5).blk t).view.emb j) 1).val = (j 1).val := by
    show win3_5.index t (1 : Fin 2) * 300 + 1 * (j 1).val = (j 1).val
    omega
  refine out_point (iblk3 V c 0 t) (iblk3 V c 2 t) (iblk3 V c 1 t) (iblk3 V c 3 t) (iblk3 V c 4 t)
    (V c main_arg0) (V c main_v58) (V c main_v1) (V c main_v2) (V c main_v59) j _
    (fun k => ?_) (fun k => ?_) (fun k => ?_) (fun k => ?_) ?_
  · exact read_atoms V c t t.val e00 e01 _ k _ hrow
  · exact read_sums V c t t.val e10 e11 _ k _ hrow
  · refine (read_upper V c t e20 e21 k _).trans (congrArg _ (funext fun a => Fin.ext ?_))
    match a with
    | ⟨0, _⟩ => rfl
    | ⟨1, _⟩ => exact hcol.symm
  · refine (read_lower V c t e30 e31 k _).trans (congrArg _ (funext fun a => Fin.ext ?_))
    match a with
    | ⟨0, _⟩ => rfl
    | ⟨1, _⟩ => exact hcol.symm
  · refine (read_bias V c t e40 e41 0 _).trans (congrArg _ (funext fun a => Fin.ext ?_))
    match a with
    | ⟨0, _⟩ => rfl
    | ⟨1, _⟩ => exact hcol.symm

/-- An index of the output array lies in point `t`'s block iff each coordinate lies in the block's range. -/
theorem mem_blk5 (t : Fin cfg3.N) (i : S100000x300.Idx) :
    i ∈ ((cfg3.win 5).blk t).view.set ↔ ∀ a : Fin 2, win3_5.index t a * S4000x300.size a ≤ (i a).val
      ∧ (i a).val < win3_5.index t a * S4000x300.size a + S4000x300.size a := by
  show i ∈ ((View.whole main_v60).slice (win3_5.rect t)).set ↔ _
  rw [View.set_slice_whole, Rect.mem_set_unit]
  exact Iff.rfl

/-- Row `r` is written by point `r / 4000`: the blocks tile the rows. -/
theorem cover5 (i : S100000x300.Idx) :
    ∃ t : Fin cfg3.N, (cfg3.win 5).flush t = true ∧ i ∈ ((cfg3.win 5).blk t).view.set := by
  have h0 : (i 0).val < 100000 := idx2_lt0 i
  have h1 : (i 1).val < 300 := idx2_lt1 i
  have hN : cfg3.N = 25 := N_3
  have ht : (i 0).val / 4000 < cfg3.N := by omega
  obtain ⟨-, -, -, -, -, -, -, -, -, -, e50, e51⟩ := idx_facts ⟨(i 0).val / 4000, ht⟩
  refine ⟨⟨(i 0).val / 4000, ht⟩, flush3_5 _, ?_⟩
  rw [mem_blk5]
  intro a
  match a with
  | ⟨0, _⟩ =>
    show win3_5.index ⟨(i 0).val / 4000, ht⟩ (0 : Fin 2) * 4000 ≤ (i 0).val
      ∧ (i 0).val < win3_5.index ⟨(i 0).val / 4000, ht⟩ (0 : Fin 2) * 4000 + 4000
    rw [e50]; show (i 0).val / 4000 * 4000 ≤ (i 0).val ∧ (i 0).val < (i 0).val / 4000 * 4000 + 4000; omega
  | ⟨1, _⟩ =>
    show win3_5.index ⟨(i 0).val / 4000, ht⟩ (1 : Fin 2) * 300 ≤ (i 1).val
      ∧ (i 1).val < win3_5.index ⟨(i 0).val / 4000, ht⟩ (1 : Fin 2) * 300 + 300
    rw [e51]; omega

/-- After the launch the output array is the read-out layer of the atom features, the message sums, the two parts of the
    weights and the bias row, as the launch found them. -/
theorem final_out (c : Dev nD) :
    (dat3 V c).arrAt 5 cfg3.N
      = Cert.Spec.outl (V c main_arg0) (V c main_v58) (V c main_v1) (V c main_v2) (V c main_v59) :=
  (dat3 V c).arrAt_eq_of_cover 5 _ (fun t _ => flushed5_eq V c t) cover5

end Cert.KernelIdeal.Region3

end
-- ==== Proof.HostChains.lean ====
/-
  The stretches of host operations between the launches, read as functions of the buffers they find.

  Between two launches the program gathers, for every atom, the messages of its six incoming bonds and sums them; then,
  for every bond, takes the sum at the bond's source atom and subtracts the message of the reverse bond. The index
  arrays are first normalised (a negative index counts from the end). After the last update only the per-atom sums are
  taken. Beside this the first stretch cuts the read-out weights into their upper 133 rows and lower 300 rows, and the
  last stretch lays the bias out as a single row. A stretch touches none of the other buffers.

  Every statement is about the stretch applied to ANY buffer contents `Wv`, so it can be used at whatever the previous
  launch left.
-/
import proofs.«121527_j44547400794478_1_alg».proof.Proof.Gen.KernelIdeal.Launch
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-- The per-atom sums: for each atom the messages of its six incoming bonds (indices normalised), added up. -/
def aggAtoms (msg : FVec Ideal S200000x300 .f32) (a2b : IVec S100000x6 32) : FVec Ideal S100000x300 .f32 :=
  Host.reduceAdd (F := Ideal)
    (Host.gather gather_S200000x300_S100000x6x1_S100000x6x300_2_0_n_n_0_2_1300 msg
      (broadcastInDim S100000x6x1 ![0, 1] bcast_S100000x6_S100000x6x1_0_1
        (select (cmpi .slt a2b (broadcastInDim S100000x6 ![] bcast_S_S100000x6 (constantI S_ 32 0#32)))
          (addi a2b (broadcastInDim S100000x6 ![] bcast_S_S100000x6 (constantI S_ 32 200000#32))) a2b)))
    (constant (F := Ideal) S_ .f32 0x00000000#32) reducesTo_S100000x6x300_S100000x300_d1 h_S_

/-- The per-bond messages going into an update: the sum at the bond's source atom minus the reverse bond's message. -/
def aggBonds (msg : FVec Ideal S200000x300 .f32) (a2b : IVec S100000x6 32) (b2a b2revb : IVec S200000 32) :
    FVec Ideal S200000x300 .f32 :=
  subf
    (Host.gather gather_S100000x300_S200000x1_S200000x300_1_0_n_n_0_1_1300 (aggAtoms msg a2b)
      (broadcastInDim S200000x1 ![0] bcast_S200000_S200000x1_0
        (select (cmpi .slt b2a (broadcastInDim S200000 ![] bcast_S_S200000 (constantI S_ 32 0#32)))
          (addi b2a (broadcastInDim S200000 ![] bcast_S_S200000 (constantI S_ 32 100000#32))) b2a)))
    (Host.gather gather_S200000x300_S200000x1_S200000x300_1_0_n_n_0_1_1300 msg
      (broadcastInDim S200000x1 ![0] bcast_S200000_S200000x1_0
        (select (cmpi .slt b2revb (broadcastInDim S200000 ![] bcast_S_S200000 (constantI S_ 32 0#32)))
          (addi b2revb (broadcastInDim S200000 ![] bcast_S_S200000 (constantI S_ 32 200000#32))) b2revb)))

variable (Wv : Valuation τ sig (Elt Ideal))

/-! ## The first stretch -/

set_option maxHeartbeats 4000000 in
theorem s1_msg : StableHlo.after (hostOps1 (F := Ideal)) Wv (Proc.devRef .tc main_v25)
    = aggBonds (Wv (Proc.devRef .tc main_v0_1)) (Wv (Proc.devRef .tc main_arg2)) (Wv (Proc.devRef .tc main_arg3))
        (Wv (Proc.devRef .tc main_arg4)) := by
  after_results_simp
  rfl

theorem s1_w1 : StableHlo.after (hostOps1 (F := Ideal)) Wv (Proc.devRef .tc main_v1)
    = extractStridedSlice S133x300 ![0, 0] (Wv (Proc.devRef .tc main_arg7)) slices_S433x300_S133x300_0_0 := by
  after_results

theorem s1_w2 : StableHlo.after (hostOps1 (F := Ideal)) Wv (Proc.devRef .tc main_v2)
    = extractStridedSlice S300x300 ![133, 0] (Wv (Proc.devRef .tc main_arg7)) slices_S433x300_S300x300_133_0 := by
  after_results

theorem s1_keep_v0_0 : StableHlo.after (hostOps1 (F := Ideal)) Wv (Proc.devRef .tc main_v0_0) = Wv (Proc.devRef .tc main_v0_0) := by
  after_results
theorem s1_keep_arg0 : StableHlo.after (hostOps1 (F := Ideal)) Wv (Proc.devRef .tc main_arg0) = Wv (Proc.devRef .tc main_arg0) := by
  after_results
theorem s1_keep_arg2 : StableHlo.after (hostOps1 (F := Ideal)) Wv (Proc.devRef .tc main_arg2) = Wv (Proc.devRef .tc main_arg2) := by
  after_results
theorem s1_keep_arg3 : StableHlo.after (hostOps1 (F := Ideal)) Wv (Proc.devRef .tc main_arg3) = Wv (Proc.devRef .tc main_arg3) := by
  after_results
theorem s1_keep_arg4 : StableHlo.after (hostOps1 (F := Ideal)) Wv (Proc.devRef .tc main_arg4) = Wv (Proc.devRef .tc main_arg4) := by
  after_results
theorem s1_keep_arg6 : StableHlo.after (hostOps1 (F := Ideal)) Wv (Proc.devRef .tc main_arg6) = Wv (Proc.devRef .tc main_arg6) := by
  after_results
theorem s1_keep_arg8 : StableHlo.after (hostOps1 (F := Ideal)) Wv (Proc.devRef .tc main_arg8) = Wv (Proc.devRef .tc main_arg8) := by
  after_results

/-! ## The second stretch -/

set_option maxHeartbeats 4000000 in
theorem s2_msg : StableHlo.after (hostOps2 (F := Ideal)) Wv (Proc.devRef .tc main_v49)
    = aggBonds (Wv (Proc.devRef .tc main_v26)) (Wv (Proc.devRef .tc main_arg2)) (Wv (Proc.devRef .tc main_arg3))
        (Wv (Proc.devRef .tc main_arg4)) := by
  after_results_simp
  rfl

theorem s2_keep_v0_0 : StableHlo.after (hostOps2 (F := Ideal)) Wv (Proc.devRef .tc main_v0_0) = Wv (Proc.devRef .tc main_v0_0) := by
  after_results
theorem s2_keep_arg0 : StableHlo.after (hostOps2 (F := Ideal)) Wv (Proc.devRef .tc main_arg0) = Wv (Proc.devRef .tc main_arg0) := by
  after_results
theorem s2_keep_arg2 : StableHlo.after (hostOps2 (F := Ideal)) Wv (Proc.devRef .tc main_arg2) = Wv (Proc.devRef .tc main_arg2) := by
  after_results
theorem s2_keep_arg6 : StableHlo.after (hostOps2 (F := Ideal)) Wv (Proc.devRef .tc main_arg6) = Wv (Proc.devRef .tc main_arg6) := by
  after_results
theorem s2_keep_arg8 : StableHlo.after (hostOps2 (F := Ideal)) Wv (Proc.devRef .tc main_arg8) = Wv (Proc.devRef .tc main_arg8) := by
  after_results
theorem s2_keep_v1 : StableHlo.after (hostOps2 (F := Ideal)) Wv (Proc.devRef .tc main_v1) = Wv (Proc.devRef .tc main_v1) := by
  after_results
theorem s2_keep_v2 : StableHlo.after (hostOps2 (F := Ideal)) Wv (Proc.devRef .tc main_v2) = Wv (Proc.devRef .tc main_v2) := by
  after_results

/-! ## The third stretch -/

set_option maxHeartbeats 4000000 in
theorem s3_sums : StableHlo.after (hostOps3 (F := Ideal)) Wv (Proc.devRef .tc main_v58)
    = aggAtoms (Wv (Proc.devRef .tc main_v50)) (Wv (Proc.devRef .tc main_arg2)) := by
  after_results_simp
  rfl

theorem s3_bias : StableHlo.after (hostOps3 (F := Ideal)) Wv (Proc.devRef .tc main_v59)
    = shapeCast S1x300 (Wv (Proc.devRef .tc main_arg8)) shapeCasts_S300_S1x300 := by
  after_results <;> rfl

theorem s3_keep_arg0 : StableHlo.after (hostOps3 (F := Ideal)) Wv (Proc.devRef .tc main_arg0) = Wv (Proc.devRef .tc main_arg0) := by
  after_results
theorem s3_keep_v1 : StableHlo.after (hostOps3 (F := Ideal)) Wv (Proc.devRef .tc main_v1) = Wv (Proc.devRef .tc main_v1) := by
  after_results
theorem s3_keep_v2 : StableHlo.after (hostOps3 (F := Ideal)) Wv (Proc.devRef .tc main_v2) = Wv (Proc.devRef .tc main_v2) := by
  after_results

end Cert.KernelIdeal.Host

end
-- ==== Proof.KernelValue.lean ====
/-
  The kernel program's result over the extended reals, as one function of its arguments.

  The buffer contents are followed from the launch to the return. The first launch leaves the input projection
  `inp = f_bonds · W_i` and the first messages `max inp 0`. Each of the next two stretches turns the current messages into
  the per-bond differences (sum at the source atom minus the reverse bond's message), and each of the next two launches
  updates the messages to `max (inp + differences · W_h) 0`; the arrays a launch reads that an earlier segment wrote are
  exactly those, and the arguments are never written. The last stretch leaves the per-atom sums of the final messages,
  the bias as a row, and (from the first stretch) the upper and lower parts of `W_o`; the last launch leaves the read-out
  layer of these.
-/
import proofs.«121527_j44547400794478_1_alg».proof.Proof.Gen.KernelIdeal.Frame
import proofs.«121527_j44547400794478_1_alg».proof.Proof.Region0
import proofs.«121527_j44547400794478_1_alg».proof.Proof.Region1
import proofs.«121527_j44547400794478_1_alg».proof.Proof.Region2
import proofs.«121527_j44547400794478_1_alg».proof.Proof.Region3
import proofs.«121527_j44547400794478_1_alg».proof.Proof.HostChains

set_option maxRecDepth 16384

noncomputable section

namespace Cert.KernelIdeal.Whole

open Cert.KernelIdeal Cert.KernelIdeal.Gen Idealize.ShloMosaic Idealize.ShloMosaic.TcCoe Idealize.SL.Sem

/-! ## The network as a function of the nine argument arrays -/

section Net

variable (x0 : FVec Ideal S100000x133 .f32) (x1 : FVec Ideal S200000x147 .f32) (x2 : IVec S100000x6 32)
  (x3 x4 : IVec S200000 32) (x5 : FVec Ideal S147x300 .f32) (x6 : FVec Ideal S300x300 .f32)
  (x7 : FVec Ideal S433x300 .f32) (x8 : FVec Ideal S300 .f32)

/-- The input projection. -/
def inp : FVec Ideal S200000x300 .f32 := Cert.Spec.lin x1 x5
/-- The first messages. -/
def msg0 : FVec Ideal S200000x300 .f32 := Cert.Spec.relu (inp x1 x5)
/-- The messages after one update. -/
def msg1 : FVec Ideal S200000x300 .f32 := Cert.Spec.hid (inp x1 x5) (Host.aggBonds (msg0 x1 x5) x2 x3 x4) x6
/-- The messages after two updates. -/
def msg2 : FVec Ideal S200000x300 .f32 :=
  Cert.Spec.hid (inp x1 x5) (Host.aggBonds (msg1 x1 x2 x3 x4 x5 x6) x2 x3 x4) x6
/-- The atom representations the program returns. -/
def net : FVec Ideal S100000x300 .f32 :=
  Cert.Spec.outl x0 (Host.aggAtoms (msg2 x1 x2 x3 x4 x5 x6) x2)
    (extractStridedSlice (s := S433x300) S133x300 ![0, 0] x7 slices_S433x300_S133x300_0_0)
    (extractStridedSlice (s := S433x300) S300x300 ![133, 0] x7 slices_S433x300_S300x300_133_0)
    (shapeCast S1x300 x8 shapeCasts_S300_S1x300)

end Net

variable (m : (ℓ : Loc nD τ sig) → Buf (Elt Ideal) ℓ) (ρ : Dev nD → PrngReg) (c : Dev nD)

/-! ## After the first launch -/

theorem w1_inp : W1 m ρ c (Proc.devRef .tc main_v0_0) = inp (m ((c : Thread nD τ).loc main_arg1)) (m ((c : Thread nD τ).loc main_arg5)) :=
  (W1_arr m ρ c 2).trans (Region0.final_inp (V0 m ρ) c)
theorem w1_msg : W1 m ρ c (Proc.devRef .tc main_v0_1) = msg0 (m ((c : Thread nD τ).loc main_arg1)) (m ((c : Thread nD τ).loc main_arg5)) :=
  (W1_arr m ρ c 3).trans (Region0.final_msg (V0 m ρ) c)
theorem w1_arg0 : W1 m ρ c (Proc.devRef .tc main_arg0) = (m ((c : Thread nD τ).loc main_arg0)) := W1_of_ne m ρ c main_arg0 (by decide)
theorem w1_arg2 : W1 m ρ c (Proc.devRef .tc main_arg2) = (m ((c : Thread nD τ).loc main_arg2)) := W1_of_ne m ρ c main_arg2 (by decide)
theorem w1_arg3 : W1 m ρ c (Proc.devRef .tc main_arg3) = (m ((c : Thread nD τ).loc main_arg3)) := W1_of_ne m ρ c main_arg3 (by decide)
theorem w1_arg4 : W1 m ρ c (Proc.devRef .tc main_arg4) = (m ((c : Thread nD τ).loc main_arg4)) := W1_of_ne m ρ c main_arg4 (by decide)
theorem w1_arg6 : W1 m ρ c (Proc.devRef .tc main_arg6) = (m ((c : Thread nD τ).loc main_arg6)) := W1_of_ne m ρ c main_arg6 (by decide)
theorem w1_arg7 : W1 m ρ c (Proc.devRef .tc main_arg7) = (m ((c : Thread nD τ).loc main_arg7)) := W1_of_ne m ρ c main_arg7 (by decide)
theorem w1_arg8 : W1 m ρ c (Proc.devRef .tc main_arg8) = (m ((c : Thread nD τ).loc main_arg8)) := W1_of_ne m ρ c main_arg8 (by decide)

/-! ## After the first stretch -/

theorem w2_msg : W2 m ρ c (Proc.devRef .tc main_v25) = Host.aggBonds (msg0 (m ((c : Thread nD τ).loc main_arg1)) (m ((c : Thread nD τ).loc main_arg5))) (m ((c : Thread nD τ).loc main_arg2)) (m ((c : Thread nD τ).loc main_arg3)) (m ((c : Thread nD τ).loc main_arg4)) := by
  refine (Host.s1_msg (W1 m ρ c)).trans ?_
  rw [w1_msg, w1_arg2, w1_arg3, w1_arg4]
theorem w2_inp : W2 m ρ c (Proc.devRef .tc main_v0_0) = inp (m ((c : Thread nD τ).loc main_arg1)) (m ((c : Thread nD τ).loc main_arg5)) := (Host.s1_keep_v0_0 (W1 m ρ c)).trans (w1_inp m ρ c)
theorem w2_arg0 : W2 m ρ c (Proc.devRef .tc main_arg0) = (m ((c : Thread nD τ).loc main_arg0)) := (Host.s1_keep_arg0 (W1 m ρ c)).trans (w1_arg0 m ρ c)
theorem w2_arg2 : W2 m ρ c (Proc.devRef .tc main_arg2) = (m ((c : Thread nD τ).loc main_arg2)) := (Host.s1_keep_arg2 (W1 m ρ c)).trans (w1_arg2 m ρ c)
theorem w2_arg3 : W2 m ρ c (Proc.devRef .tc main_arg3) = (m ((c : Thread nD τ).loc main_arg3)) := (Host.s1_keep_arg3 (W1 m ρ c)).trans (w1_arg3 m ρ c)
theorem w2_arg4 : W2 m ρ c (Proc.devRef .tc main_arg4) = (m ((c : Thread nD τ).loc main_arg4)) := (Host.s1_keep_arg4 (W1 m ρ c)).trans (w1_arg4 m ρ c)
theorem w2_arg6 : W2 m ρ c (Proc.devRef .tc main_arg6) = (m ((c : Thread nD τ).loc main_arg6)) := (Host.s1_keep_arg6 (W1 m ρ c)).trans (w1_arg6 m ρ c)
theorem w2_arg8 : W2 m ρ c (Proc.devRef .tc main_arg8) = (m ((c : Thread nD τ).loc main_arg8)) := (Host.s1_keep_arg8 (W1 m ρ c)).trans (w1_arg8 m ρ c)
theorem w2_upper : W2 m ρ c (Proc.devRef .tc main_v1)
    = extractStridedSlice (s := S433x300) S133x300 ![0, 0] (m ((c : Thread nD τ).loc main_arg7)) slices_S433x300_S133x300_0_0 := by
  refine (Host.s1_w1 (W1 m ρ c)).trans ?_
  rw [w1_arg7]
theorem w2_lower : W2 m ρ c (Proc.devRef .tc main_v2)
    = extractStridedSlice (s := S433x300) S300x300 ![133, 0] (m ((c : Thread nD τ).loc main_arg7)) slices_S433x300_S300x300_133_0 := by
  refine (Host.s1_w2 (W1 m ρ c)).trans ?_
  rw [w1_arg7]

/-! ## After the second launch -/

theorem w3_msg : W3 m ρ c (Proc.devRef .tc main_v26) = msg1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W3_arr m ρ c 3).trans (Region1.final_hid (V2 m ρ) c)).trans ?_
  show Cert.Spec.hid (W2 m ρ c (Proc.devRef .tc main_v0_0)) (W2 m ρ c (Proc.devRef .tc main_v25))
    (W2 m ρ c (Proc.devRef .tc main_arg6)) = _
  rw [w2_inp, w2_msg, w2_arg6]; rfl
theorem w3_inp : W3 m ρ c (Proc.devRef .tc main_v0_0) = inp (m ((c : Thread nD τ).loc main_arg1)) (m ((c : Thread nD τ).loc main_arg5)) :=
  ((W3_arr m ρ c 1).trans (((dat1 (V2 m ρ) c).arrAt_in 1 rfl _).trans (A_eq1 (V2 m ρ) c 1))).trans (w2_inp m ρ c)
theorem w3_arg0 : W3 m ρ c (Proc.devRef .tc main_arg0) = (m ((c : Thread nD τ).loc main_arg0)) := (W3_of_ne m ρ c main_arg0 (by decide)).trans (w2_arg0 m ρ c)
theorem w3_arg2 : W3 m ρ c (Proc.devRef .tc main_arg2) = (m ((c : Thread nD τ).loc main_arg2)) := (W3_of_ne m ρ c main_arg2 (by decide)).trans (w2_arg2 m ρ c)
theorem w3_arg3 : W3 m ρ c (Proc.devRef .tc main_arg3) = (m ((c : Thread nD τ).loc main_arg3)) := (W3_of_ne m ρ c main_arg3 (by decide)).trans (w2_arg3 m ρ c)
theorem w3_arg4 : W3 m ρ c (Proc.devRef .tc main_arg4) = (m ((c : Thread nD τ).loc main_arg4)) := (W3_of_ne m ρ c main_arg4 (by decide)).trans (w2_arg4 m ρ c)
theorem w3_arg6 : W3 m ρ c (Proc.devRef .tc main_arg6) = (m ((c : Thread nD τ).loc main_arg6)) :=
  ((W3_arr m ρ c 2).trans (((dat1 (V2 m ρ) c).arrAt_in 2 rfl _).trans (A_eq1 (V2 m ρ) c 2))).trans (w2_arg6 m ρ c)
theorem w3_arg8 : W3 m ρ c (Proc.devRef .tc main_arg8) = (m ((c : Thread nD τ).loc main_arg8)) := (W3_of_ne m ρ c main_arg8 (by decide)).trans (w2_arg8 m ρ c)
theorem w3_upper : W3 m ρ c (Proc.devRef .tc main_v1)
    = extractStridedSlice (s := S433x300) S133x300 ![0, 0] (m ((c : Thread nD τ).loc main_arg7)) slices_S433x300_S133x300_0_0 :=
  (W3_of_ne m ρ c main_v1 (by decide)).trans (w2_upper m ρ c)
theorem w3_lower : W3 m ρ c (Proc.devRef .tc main_v2)
    = extractStridedSlice (s := S433x300) S300x300 ![133, 0] (m ((c : Thread nD τ).loc main_arg7)) slices_S433x300_S300x300_133_0 :=
  (W3_of_ne m ρ c main_v2 (by decide)).trans (w2_lower m ρ c)

/-! ## After the second stretch -/

theorem w4_msg : W4 m ρ c (Proc.devRef .tc main_v49) = Host.aggBonds (msg1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg2)) (m ((c : Thread nD τ).loc main_arg3)) (m ((c : Thread nD τ).loc main_arg4)) := by
  refine (Host.s2_msg (W3 m ρ c)).trans ?_
  rw [w3_msg, w3_arg2, w3_arg3, w3_arg4]
theorem w4_inp : W4 m ρ c (Proc.devRef .tc main_v0_0) = inp (m ((c : Thread nD τ).loc main_arg1)) (m ((c : Thread nD τ).loc main_arg5)) := (Host.s2_keep_v0_0 (W3 m ρ c)).trans (w3_inp m ρ c)
theorem w4_arg0 : W4 m ρ c (Proc.devRef .tc main_arg0) = (m ((c : Thread nD τ).loc main_arg0)) := (Host.s2_keep_arg0 (W3 m ρ c)).trans (w3_arg0 m ρ c)
theorem w4_arg2 : W4 m ρ c (Proc.devRef .tc main_arg2) = (m ((c : Thread nD τ).loc main_arg2)) := (Host.s2_keep_arg2 (W3 m ρ c)).trans (w3_arg2 m ρ c)
theorem w4_arg6 : W4 m ρ c (Proc.devRef .tc main_arg6) = (m ((c : Thread nD τ).loc main_arg6)) := (Host.s2_keep_arg6 (W3 m ρ c)).trans (w3_arg6 m ρ c)
theorem w4_arg8 : W4 m ρ c (Proc.devRef .tc main_arg8) = (m ((c : Thread nD τ).loc main_arg8)) := (Host.s2_keep_arg8 (W3 m ρ c)).trans (w3_arg8 m ρ c)
theorem w4_upper : W4 m ρ c (Proc.devRef .tc main_v1)
    = extractStridedSlice (s := S433x300) S133x300 ![0, 0] (m ((c : Thread nD τ).loc main_arg7)) slices_S433x300_S133x300_0_0 :=
  (Host.s2_keep_v1 (W3 m ρ c)).trans (w3_upper m ρ c)
theorem w4_lower : W4 m ρ c (Proc.devRef .tc main_v2)
    = extractStridedSlice (s := S433x300) S300x300 ![133, 0] (m ((c : Thread nD τ).loc main_arg7)) slices_S433x300_S300x300_133_0 :=
  (Host.s2_keep_v2 (W3 m ρ c)).trans (w3_lower m ρ c)

/-! ## After the third launch -/

theorem w5_msg : W5 m ρ c (Proc.devRef .tc main_v50) = msg2 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W5_arr m ρ c 3).trans (Region2.final_hid (V4 m ρ) c)).trans ?_
  show Cert.Spec.hid (W4 m ρ c (Proc.devRef .tc main_v0_0)) (W4 m ρ c (Proc.devRef .tc main_v49))
    (W4 m ρ c (Proc.devRef .tc main_arg6)) = _
  rw [w4_inp, w4_msg, w4_arg6]; rfl
theorem w5_arg0 : W5 m ρ c (Proc.devRef .tc main_arg0) = (m ((c : Thread nD τ).loc main_arg0)) := (W5_of_ne m ρ c main_arg0 (by decide)).trans (w4_arg0 m ρ c)
theorem w5_arg2 : W5 m ρ c (Proc.devRef .tc main_arg2) = (m ((c : Thread nD τ).loc main_arg2)) := (W5_of_ne m ρ c main_arg2 (by decide)).trans (w4_arg2 m ρ c)
theorem w5_arg8 : W5 m ρ c (Proc.devRef .tc main_arg8) = (m ((c : Thread nD τ).loc main_arg8)) := (W5_of_ne m ρ c main_arg8 (by decide)).trans (w4_arg8 m ρ c)
theorem w5_upper : W5 m ρ c (Proc.devRef .tc main_v1)
    = extractStridedSlice (s := S433x300) S133x300 ![0, 0] (m ((c : Thread nD τ).loc main_arg7)) slices_S433x300_S133x300_0_0 :=
  (W5_of_ne m ρ c main_v1 (by decide)).trans (w4_upper m ρ c)
theorem w5_lower : W5 m ρ c (Proc.devRef .tc main_v2)
    = extractStridedSlice (s := S433x300) S300x300 ![133, 0] (m ((c : Thread nD τ).loc main_arg7)) slices_S433x300_S300x300_133_0 :=
  (W5_of_ne m ρ c main_v2 (by decide)).trans (w4_lower m ρ c)

/-! ## After the third stretch -/

theorem w6_sums : W6 m ρ c (Proc.devRef .tc main_v58) = Host.aggAtoms (msg2 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg2)) := by
  refine (Host.s3_sums (W5 m ρ c)).trans ?_
  rw [w5_msg, w5_arg2]
theorem w6_bias : W6 m ρ c (Proc.devRef .tc main_v59) = shapeCast S1x300 (m ((c : Thread nD τ).loc main_arg8)) shapeCasts_S300_S1x300 := by
  refine (Host.s3_bias (W5 m ρ c)).trans ?_
  rw [w5_arg8]
theorem w6_arg0 : W6 m ρ c (Proc.devRef .tc main_arg0) = (m ((c : Thread nD τ).loc main_arg0)) := (Host.s3_keep_arg0 (W5 m ρ c)).trans (w5_arg0 m ρ c)
theorem w6_upper : W6 m ρ c (Proc.devRef .tc main_v1)
    = extractStridedSlice (s := S433x300) S133x300 ![0, 0] (m ((c : Thread nD τ).loc main_arg7)) slices_S433x300_S133x300_0_0 :=
  (Host.s3_keep_v1 (W5 m ρ c)).trans (w5_upper m ρ c)
theorem w6_lower : W6 m ρ c (Proc.devRef .tc main_v2)
    = extractStridedSlice (s := S433x300) S300x300 ![133, 0] (m ((c : Thread nD τ).loc main_arg7)) slices_S433x300_S300x300_133_0 :=
  (Host.s3_keep_v2 (W5 m ρ c)).trans (w5_lower m ρ c)

/-! ## After the last launch -/

/-- The result buffer at the last boundary is the network of the nine argument arrays. -/
theorem w7_result : W7 m ρ c (Proc.devRef .tc main_v60) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W7_arr m ρ c 5).trans (Region3.final_out (V6 m ρ) c)).trans ?_
  show Cert.Spec.outl (W6 m ρ c (Proc.devRef .tc main_arg0)) (W6 m ρ c (Proc.devRef .tc main_v58))
    (W6 m ρ c (Proc.devRef .tc main_v1)) (W6 m ρ c (Proc.devRef .tc main_v2)) (W6 m ρ c (Proc.devRef .tc main_v59)) = _
  rw [w6_arg0, w6_sums, w6_upper, w6_lower, w6_bias]; rfl

end Cert.KernelIdeal.Whole

end
-- ==== Proof.RefStages.lean ====
/-
  The reference's stages as the layers of the specification.

  The reference computes the input projection and every later product with one whole matrix product, takes positive
  parts against a broadcast zero, and in the read-out layer joins atom features and message sums side by side into one
  433-column matrix that it multiplies by the whole weight matrix. Entry by entry these are the specification's
  layers; for the read-out layer the sum over the 433 joined columns is the sum over the first 133 (the atom features
  against the upper rows of the weights) plus the sum over the last 300 (the message sums against the lower rows): a
  finite sum regrouped, which holds on the extended reals as in any commutative monoid.
-/
import proofs.«121527_j44547400794478_1_alg».proof.Proof.Gen.ReferenceIdeal.Read
import proofs.«121527_j44547400794478_1_alg».proof.Proof.Spec
import Idealize.ShloMosaic.Lib.StackMember
import Idealize.ShloMosaic.Lib.ValueLayout
import Idealize.ShloMosaic.Lib.Pipeline.Value

noncomputable section

open scoped BigOperators

namespace Cert.ReferenceIdeal.Stages

open Cert.ReferenceIdeal Cert.ReferenceIdeal.Gen Cert.ReferenceIdeal.Read Idealize.ShloMosaic Idealize.ShloMosaic.ValueIdx

/-- The reference's input projection is the specification's product. -/
theorem lin_eq (x1 : FVec Ideal S200000x147 .f32) (x5 : FVec Ideal S147x300 .f32) :
    val_main_v0 (F := Ideal) x1 x5 = Cert.Spec.lin x1 x5 := by
  funext i
  obtain ⟨P, q, rfl⟩ : ∃ (P : Fin 200000) (q : Fin 300), i = ix2 P q := ⟨i 0, i 1, eq_ix2 i⟩
  exact StackMember.dotGeneral_plain_apply none x1 x5 P q

/-- A maximum against an array that is zero everywhere is the positive part. -/
theorem relu_eq {s : Shape} (y z : FVec Ideal s .f32) (hz : ∀ i, z i = Cert.Spec.zero32) :
    maximumf y z = Cert.Spec.relu y := by
  funext i
  show max (y i) (z i) = max (y i) Cert.Spec.zero32
  rw [hz]

/-- The reference's hidden update is the specification's. -/
theorem hid_eq (inp msg : FVec Ideal S200000x300 .f32) (w : FVec Ideal S300x300 .f32) (z : FVec Ideal S200000x300 .f32)
    (hz : ∀ i, z i = Cert.Spec.zero32) :
    maximumf (addf inp (Host.dotGeneral dot_S200000x300_S300x300_S200000x300_1_0_0_1_n_n none msg w)) z
      = Cert.Spec.hid inp msg w := by
  funext i
  obtain ⟨P, q, rfl⟩ : ∃ (P : Fin 200000) (q : Fin 300), i = ix2 P q := ⟨i 0, i 1, eq_ix2 i⟩
  show max (inp (ix2 P q) + Host.dotGeneral dot_S200000x300_S300x300_S200000x300_1_0_0_1_n_n none msg w (ix2 P q)) (z (ix2 P q)) = _
  rw [hz, Cert.Spec.hid_apply]
  exact congrArg (fun y => max (inp (ix2 P q) + y) Cert.Spec.zero32) (StackMember.dotGeneral_plain_apply none msg w P q)

/-- The three broadcast zeros of the reference's positive parts. -/
theorem zero0 (i : S200000x300.Idx) : val_main_call0_v0 (F := Ideal) i = Cert.Spec.zero32 :=
  (val_main_call0_v0_apply i).trans rfl
theorem zero1 (i : S200000x300.Idx) : val_main_call1_v0 (F := Ideal) i = Cert.Spec.zero32 :=
  (val_main_call1_v0_apply i).trans rfl
theorem zero2 (i : S200000x300.Idx) : val_main_call2_v0 (F := Ideal) i = Cert.Spec.zero32 :=
  (val_main_call2_v0_apply i).trans rfl
theorem zero3 (i : S100000x300.Idx) : val_main_call3_v0 (F := Ideal) i = Cert.Spec.zero32 :=
  (val_main_call3_v0_apply i).trans rfl

/-- The bias broadcast down the rows, read at an entry. -/
theorem bias_apply (x8 : FVec Ideal S300 .f32) (P : Fin 100000) (q : Fin 300) :
    val_main_v65 (F := Ideal) x8 (ix2 P q) = x8 (ix1 q) := by
  rw [val_main_v65_apply, val_main_v64_apply]
  refine congrArg x8 (funext fun a => Fin.ext ?_)
  match a with
  | ⟨0, _⟩ => rfl

/-- The joined matrix read in its first 133 columns is the atom features. -/
theorem joined_left (x0 : FVec Ideal S100000x133 .f32) (am : FVec Ideal S100000x300 .f32) (P : Fin 100000) (k : Fin 133) :
    concatenate S100000x433 1 [⟨S100000x133, x0⟩, ⟨S100000x300, am⟩] concatenates_S100000x133_S100000x300_S100000x433_d1
        (ix2 P (Fin.castAdd 300 k)) = x0 (ix2 P k) := by
  refine concatenate_pair_apply_left (1 : Fin 2) x0 am _ (ix2 P (Fin.castAdd 300 k)) rfl (ix2 P k) fun b => ?_
  match b with
  | ⟨0, _⟩ => rfl
  | ⟨1, _⟩ => rfl

/-- The joined matrix read in its last 300 columns is the message sums. -/
theorem joined_right (x0 : FVec Ideal S100000x133 .f32) (am : FVec Ideal S100000x300 .f32) (P : Fin 100000) (k : Fin 300) :
    concatenate S100000x433 1 [⟨S100000x133, x0⟩, ⟨S100000x300, am⟩] concatenates_S100000x133_S100000x300_S100000x433_d1
        (ix2 P (Fin.natAdd 133 k)) = am (ix2 P k) := by
  refine concatenate_pair_apply_right (1 : Fin 2) x0 am _ (ix2 P (Fin.natAdd 133 k)) rfl rfl (ix2 P k) (fun b hb => ?_) ?_
  · match b with
    | ⟨0, _⟩ => rfl
    | ⟨1, _⟩ => exact absurd rfl hb
  · show k.val + 133 = 133 + k.val
    omega

/-- The reference's read-out layer is the specification's, over the two parts of the weights and the bias as a row. -/
theorem out_eq (x0 : FVec Ideal S100000x133 .f32) (am : FVec Ideal S100000x300 .f32) (x7 : FVec Ideal S433x300 .f32)
    (x8 : FVec Ideal S300 .f32) (z : FVec Ideal S100000x300 .f32) (hz : ∀ i, z i = Cert.Spec.zero32)
    (hs1 : S433x300.Slices ![0, 0] (⟨2, ![133, 300]⟩ : Shape)) (hs2 : S433x300.Slices ![133, 0] S300x300) (hc : S300.ShapeCasts S1x300) :
    maximumf (addf (Host.dotGeneral dot_S100000x433_S433x300_S100000x300_1_0_0_1_n_n none
        (concatenate S100000x433 1 [⟨S100000x133, x0⟩, ⟨S100000x300, am⟩] concatenates_S100000x133_S100000x300_S100000x433_d1) x7)
        (val_main_v65 (F := Ideal) x8)) z
      = Cert.Spec.outl x0 am (extractStridedSlice (⟨2, ![133, 300]⟩ : Shape) ![0, 0] x7 hs1) (extractStridedSlice S300x300 ![133, 0] x7 hs2)
          (shapeCast S1x300 x8 hc) := by
  funext i
  obtain ⟨P, q, rfl⟩ : ∃ (P : Fin 100000) (q : Fin 300), i = ix2 P q := ⟨i 0, i 1, eq_ix2 i⟩
  show max (Host.dotGeneral dot_S100000x433_S433x300_S100000x300_1_0_0_1_n_n none
      (concatenate S100000x433 1 [⟨S100000x133, x0⟩, ⟨S100000x300, am⟩] concatenates_S100000x133_S100000x300_S100000x433_d1) x7 (ix2 P q)
      + val_main_v65 (F := Ideal) x8 (ix2 P q)) (z (ix2 P q)) = _
  rw [hz, Cert.Spec.outl_apply, bias_apply, shapeCast_a_1a_apply]
  refine congrArg (fun y => max (y + x8 (ix1 q)) Cert.Spec.zero32) ?_
  refine (StackMember.dotGeneral_plain_apply none _ x7 P q).trans ?_
  refine (Fin.sum_univ_add (fun k : Fin (133 + 300) =>
    concatenate S100000x433 1 [⟨S100000x133, x0⟩, ⟨S100000x300, am⟩] concatenates_S100000x133_S100000x300_S100000x433_d1 (ix2 P k)
      * x7 (ix2 k q))).trans ?_
  refine congrArg₂ (· + ·) (Finset.sum_congr rfl fun k _ => ?_) (Finset.sum_congr rfl fun k _ => ?_)
  · refine congrArg₂ (· * ·) (joined_left x0 am P k) ?_
    refine (extractStridedSlice_apply ![0, 0] x7 hs1 (ix2 k q) (ix2 (Fin.castAdd 300 k) q) fun a => ?_).symm
    match a with
    | ⟨0, _⟩ => show k.val = 0 + k.val; omega
    | ⟨1, _⟩ => show q.val = 0 + q.val; omega
  · refine congrArg₂ (· * ·) (joined_right x0 am P k) ?_
    refine (extractStridedSlice_apply ![133, 0] x7 hs2 (ix2 k q) (ix2 (Fin.natAdd 133 k) q) fun a => ?_).symm
    match a with
    | ⟨0, _⟩ => show 133 + k.val = 133 + k.val; rfl
    | ⟨1, _⟩ => show q.val = 0 + q.val; omega

end Cert.ReferenceIdeal.Stages

end
-- ==== Proof.Bridge.lean ====
/-
  The reference's result is the network of the specification.

  Stage by stage: the reference's input projection is the product; its positive parts are the specification's; the host
  operations between its products are the same gathers, sums and differences the kernel's program applies between its
  launches; its hidden updates are the specification's; and its read-out layer over the joined matrix is the
  specification's over the two parts of the weights.
-/
import proofs.«121527_j44547400794478_1_alg».proof.Proof.RefStages
import proofs.«121527_j44547400794478_1_alg».proof.Proof.KernelValue

set_option maxRecDepth 16384

noncomputable section

namespace Cert.Bridge

open Idealize.ShloMosaic Idealize.ShloMosaic.ValueIdx
open Cert.ReferenceIdeal.Read

variable (x0 : FVec Ideal Cert.ReferenceIdeal.S100000x133 .f32) (x1 : FVec Ideal Cert.ReferenceIdeal.S200000x147 .f32)
  (x2 : IVec Cert.ReferenceIdeal.S100000x6 32) (x3 x4 : IVec Cert.ReferenceIdeal.S200000 32)
  (x5 : FVec Ideal Cert.ReferenceIdeal.S147x300 .f32) (x6 : FVec Ideal Cert.ReferenceIdeal.S300x300 .f32)
  (x7 : FVec Ideal Cert.ReferenceIdeal.S433x300 .f32) (x8 : FVec Ideal Cert.ReferenceIdeal.S300 .f32)

/-- The reference's first messages. -/
theorem ref_msg0 : val_main_v1 (F := Ideal) x1 x5 = Cert.KernelIdeal.Whole.msg0 x1 x5 := by
  unfold val_main_v1
  rw [Cert.ReferenceIdeal.Stages.relu_eq _ _ Cert.ReferenceIdeal.Stages.zero0, Cert.ReferenceIdeal.Stages.lin_eq]
  rfl

/-- The reference's per-bond differences before the first update are the kernel program's. -/
theorem ref_diff1 : val_main_v24 (F := Ideal) x1 x2 x3 x4 x5
    = Cert.KernelIdeal.Host.aggBonds (val_main_v1 (F := Ideal) x1 x5) x2 x3 x4 := rfl

/-- The reference's messages after one update. -/
theorem ref_msg1 : val_main_v27 (F := Ideal) x1 x2 x3 x4 x5 x6 = Cert.KernelIdeal.Whole.msg1 x1 x2 x3 x4 x5 x6 := by
  unfold val_main_v27 val_main_v26 val_main_v25
  rw [Cert.ReferenceIdeal.Stages.hid_eq _ _ _ _ Cert.ReferenceIdeal.Stages.zero1, Cert.ReferenceIdeal.Stages.lin_eq,
    ref_diff1, ref_msg0]
  rfl

/-- The reference's per-bond differences before the second update are the kernel program's. -/
theorem ref_diff2 : val_main_v50 (F := Ideal) x1 x2 x3 x4 x5 x6
    = Cert.KernelIdeal.Host.aggBonds (val_main_v27 (F := Ideal) x1 x2 x3 x4 x5 x6) x2 x3 x4 := rfl

/-- The reference's messages after two updates. -/
theorem ref_msg2 : val_main_v53 (F := Ideal) x1 x2 x3 x4 x5 x6 = Cert.KernelIdeal.Whole.msg2 x1 x2 x3 x4 x5 x6 := by
  unfold val_main_v53 val_main_v52 val_main_v51
  rw [Cert.ReferenceIdeal.Stages.hid_eq _ _ _ _ Cert.ReferenceIdeal.Stages.zero2, Cert.ReferenceIdeal.Stages.lin_eq,
    ref_diff2, ref_msg1]
  rfl

/-- The reference's final per-atom sums are the kernel program's. -/
theorem ref_sums : val_main_v61 (F := Ideal) x1 x2 x3 x4 x5 x6
    = Cert.KernelIdeal.Host.aggAtoms (val_main_v53 (F := Ideal) x1 x2 x3 x4 x5 x6) x2 := rfl

/-- The reference's result is the network of its nine arguments. -/
theorem ref_net : val_main_v67 (F := Ideal) x0 x1 x2 x3 x4 x5 x6 x7 x8
    = Cert.KernelIdeal.Whole.net x0 x1 x2 x3 x4 x5 x6 x7 x8 := by
  unfold val_main_v67 val_main_v66 val_main_v63 val_main_v62
  rw [Cert.ReferenceIdeal.Stages.out_eq x0 _ x7 x8 _ Cert.ReferenceIdeal.Stages.zero3
      Cert.KernelIdeal.Gen.slices_S433x300_S133x300_0_0 Cert.KernelIdeal.Gen.slices_S433x300_S300x300_133_0
      Cert.KernelIdeal.Gen.shapeCasts_S300_S1x300, ref_sums, ref_msg2]
  rfl

end Cert.Bridge

end
-- ==== Proof.lean ====
/-
  A bond-message passing network over a molecular graph — an input projection of the bond features, two rounds of message
  passing (gather the incoming messages at each atom, subtract the reverse bond's message, multiply by the hidden weights,
  add the input projection, take the positive part), and a read-out layer over the atom features joined with the final
  per-atom message sums — computed by four kernel launches among host gathers against the same network computed by plain
  array operations.

  Over the extended reals the two programs are the same function of the nine arguments. The matrix products agree entry
  by entry (a block of rows times a whole weight matrix is the block of the whole product); the gathers, sums and
  differences between the products are literally the same operations; and in the read-out layer the kernel multiplies the
  atom features by the upper 133 rows of the weights and the message sums by the lower 300 rows and adds, where the
  reference multiplies the joined 433-column matrix by the whole weights: one finite sum split in two, which needs no
  finiteness of its terms. So the precondition is never opened.

  The three frame claims are the programs' runs with the results dropped; no operation was rewritten in passing from
  the kernel as printed to its reading over the extended reals, so there is nothing to preserve.
-/
import proofs.«121527_j44547400794478_1_alg».proof.Defs
import proofs.«121527_j44547400794478_1_alg».proof.Proof.Gen.Kernel
import proofs.«121527_j44547400794478_1_alg».proof.Proof.Gen.Kernel.Skeleton
import proofs.«121527_j44547400794478_1_alg».proof.Proof.Gen.Kernel.Launch
import proofs.«121527_j44547400794478_1_alg».proof.Proof.Gen.Kernel.Points
import proofs.«121527_j44547400794478_1_alg».proof.Proof.Gen.Kernel.Frame
import proofs.«121527_j44547400794478_1_alg».proof.Proof.Gen.KernelIdeal
import proofs.«121527_j44547400794478_1_alg».proof.Proof.Gen.KernelIdeal.Skeleton
import proofs.«121527_j44547400794478_1_alg».proof.Proof.Gen.KernelIdeal.Launch
import proofs.«121527_j44547400794478_1_alg».proof.Proof.Gen.KernelIdeal.Points
import proofs.«121527_j44547400794478_1_alg».proof.Proof.Gen.KernelIdeal.Frame
import proofs.«121527_j44547400794478_1_alg».proof.Proof.Gen.ReferenceIdeal
import proofs.«121527_j44547400794478_1_alg».proof.Proof.Gen.Pre_finite_inputs
import proofs.«121527_j44547400794478_1_alg».proof.Proof.Gen.ReferenceIdeal.Run
import proofs.«121527_j44547400794478_1_alg».proof.Proof.Gen.ReferenceIdeal.Read
import proofs.«121527_j44547400794478_1_alg».proof.Proof.KernelRun
import proofs.«121527_j44547400794478_1_alg».proof.Proof.KernelValue
import proofs.«121527_j44547400794478_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the nine arguments in their result buffer. -/
theorem algebraic : Cert.algebraic_KernelIdeal_ReferenceIdeal := by
  intro m ρ m' ρ' _ hagree
  refine ⟨fun c => Cert.KernelIdeal.Whole.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.w7_result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v67_eq, h0, h1, h2, h3, h4, h5, h6, h7, h8]
    exact Cert.Bridge.ref_net _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
